-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x17 : Shape := ⟨3, ![4096, 200, 17]⟩
abbrev S16x128 : Shape := ⟨2, ![16, 128]⟩
abbrev S128 : Shape := ⟨1, ![128]⟩
abbrev S128x64 : Shape := ⟨2, ![128, 64]⟩
abbrev S64 : Shape := ⟨1, ![64]⟩
abbrev S_ : Shape := ⟨0, ![]⟩
abbrev S4096x200x1 : Shape := ⟨3, ![4096, 200, 1]⟩

class Facts : Prop where
  bcast_S_S4096x200x17 : S_.BroadcastsInDim S4096x200x17 (![] : Fin 0 → Fin S4096x200x17.rank)
  reducesTo_S4096x200x17_S_d0_1_2 : S4096x200x17.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S4096x200x17_S4096x200x1_0_0_16 : S4096x200x17.Slices ![0, 0, 16] S4096x200x1
  bcast_S_S4096x200x1 : S_.BroadcastsInDim S4096x200x1 (![] : Fin 0 → Fin S4096x200x1.rank)
  reducesTo_S4096x200x1_S_d0_1_2 : S4096x200x1.ReducesTo [0, 1, 2] S_

variable [Facts]

def fn_part1 {F : FTy → Type} [FloatOps F] (main_arg0 : FVec F S4096x200x17 .f32) (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4096x200x1 .f32 := (extractStridedSlice S4096x200x1 ![0, 0, 16] · slices_S4096x200x17_S4096x200x1_0_0_16) main_arg0
  let main_cst_8 : FVec F S_ .f32 := constant S_ .f32 0x00000000#32
  let main_v25 : FVec F S4096x200x1 .f32 := broadcastInDim S4096x200x1 ![] bcast_S_S4096x200x1 main_cst_8
  let main_v26 : IVec S4096x200x1 1 := cmpf .oeq main_v24 main_v25
  let main_v27 : FVec F S4096x200x1 .f32 := (extractStridedSlice S4096x200x1 ![0, 0, 16] · slices_S4096x200x17_S4096x200x1_0_0_16) main_arg0
  let main_cst_9 : FVec F S_ .f32 := constant S_ .f32 0x3F800000#32
  let main_v28 : FVec F S4096x200x1 .f32 := broadcastInDim S4096x200x1 ![] bcast_S_S4096x200x1 main_cst_9
  let main_v29 : IVec S4096x200x1 1 := cmpf .oeq main_v27 main_v28
  let main_v30 : IVec S4096x200x1 1 := ori main_v26 main_v29
  let main_c_10 : IVec S_ 1 := constantI S_ 1 1#1
  let main_v31 : IVec S_ 1 := (fun x v => Host.reduce IntOp.andi x v reducesTo_S4096x200x1_S_d0_1_2 h_S_) main_v30 main_c_10
  let main_v32 : IVec S_ 1 := andi main_v23 main_v31
  main_v32

def fn {F : FTy → Type} [FloatOps F] (main_arg0 : FVec F S4096x200x17 .f32) (main_arg1 : FVec F S16x128 .f32) (main_arg2 : FVec F S128 .f32) (main_arg3 : FVec F S128x64 .f32) (main_arg4 : FVec F S64 .f32) : IVec S_ 1 :=
  let main_v0 : FVec F S4096x200x17 .f32 := Host.absf main_arg0
  let main_cst : FVec F S_ .f32 := constant S_ .f32 0x7F800000#32
  let main_v1 : FVec F S4096x200x17 .f32 := broadcastInDim S4096x200x17 ![] bcast_S_S4096x200x17 main_cst
  let main_v2 : IVec S4096x200x17 1 := cmpf .olt main_v0 main_v1
  let main_c : IVec S_ 1 := constantI S_ 1 1#1
  let main_v3 : IVec S_ 1 := (fun x v => Host.reduce IntOp.andi x v reducesTo_S4096x200x17_S_d0_1_2 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg4 main_v13 main_v16
-- ==== Kernel.lean ====
abbrev S4096x200x17 : Shape := ⟨3, ![4096, 200, 17]⟩
abbrev S16x128 : Shape := ⟨2, ![16, 128]⟩
abbrev S128 : Shape := ⟨1, ![128]⟩
abbrev S128x64 : Shape := ⟨2, ![128, 64]⟩
abbrev S64 : Shape := ⟨1, ![64]⟩
abbrev S17x200x4096 : Shape := ⟨3, ![17, 200, 4096]⟩
abbrev S_ : Shape := ⟨0, ![]⟩
abbrev S17x129 : Shape := ⟨2, ![17, 129]⟩
abbrev S1 : Shape := ⟨1, ![1]⟩
abbrev S2 : Shape := ⟨1, ![2]⟩
abbrev S129x65 : Shape := ⟨2, ![129, 65]⟩
abbrev S65x200x4096 : Shape := ⟨3, ![65, 200, 4096]⟩
abbrev S4096x200x65 : Shape := ⟨3, ![4096, 200, 65]⟩
abbrev S17x8x4096 : Shape := ⟨3, ![17, 8, 4096]⟩
abbrev S65x8x4096 : Shape := ⟨3, ![65, 8, 4096]⟩
abbrev S17x32768 : Shape := ⟨2, ![17, 32768]⟩
abbrev S1x32768 : Shape := ⟨2, ![1, 32768]⟩
abbrev S129x32768 : Shape := ⟨2, ![129, 32768]⟩
abbrev S65x32768 : Shape := ⟨2, ![65, 32768]⟩

abbrev nBuf : Space → Nat
  | .hbm => 50
  | .vmem => 6
  | .smem => 0
  | _ => 0

abbrev bufTy : (tb : Table) → Fin (tcTables nBuf tb) → BufTy
  | .hbm, ⟨0, _⟩ => ⟨S4096x200x17, .f32⟩
  | .hbm, ⟨1, _⟩ => ⟨S16x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S17x200x4096, .f32⟩
  | .hbm, ⟨6, _⟩ => ⟨S_, .f32⟩
  | .hbm, ⟨7, _⟩ => ⟨S17x129, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S17x129, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S17x129, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S_, .f32⟩
  | .hbm, ⟨26, _⟩ => ⟨S17x129, .f32⟩
  | .hbm, ⟨27, _⟩ => ⟨S_, .f32⟩
  | .hbm, ⟨28, _⟩ => ⟨S129x65, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S129x65, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S129x65, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S_, .f32⟩
  | .hbm, ⟨47, _⟩ => ⟨S129x65, .f32⟩
  | .hbm, ⟨48, _⟩ => ⟨S65x200x4096, .f32⟩
  | .hbm, ⟨49, _⟩ => ⟨S4096x200x65, .f32⟩
  | .local _ .vmem, ⟨0, _⟩ => ⟨S17x8x4096, .f32⟩
  | .local _ .vmem, ⟨1, _⟩ => ⟨S17x8x4096, .f32⟩
  | .local _ .vmem, ⟨2, _⟩ => ⟨S17x129, .f32⟩
  | .local _ .vmem, ⟨3, _⟩ => ⟨S129x65, .f32⟩
  | .local _ .vmem, ⟨4, _⟩ => ⟨S65x8x4096, .f32⟩
  | .local _ .vmem, ⟨5, _⟩ => ⟨S65x8x4096, .f32⟩
  | _, _ => ⟨S4096x200x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_c_0 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c_3 : Ref sig .tc := ⟨.hbm, 20, rfl⟩
abbrev main_call0_v10 : Ref sig .tc := ⟨.hbm, 21, rfl⟩
abbrev main_call0_c_4 : Ref sig .tc := ⟨.hbm, 22, rfl⟩
abbrev main_call0_v11 : Ref sig .tc := ⟨.hbm, 23, rfl⟩
abbrev main_call0_v12 : Ref sig .tc := ⟨.hbm, 24, rfl⟩
abbrev main_call0_cst_5 : Ref sig .tc := ⟨.hbm, 25, rfl⟩
abbrev main_call0_v13 : Ref sig .tc := ⟨.hbm, 26, rfl⟩
abbrev main_call0_cst_6 : Ref sig .tc := ⟨.hbm, 27, rfl⟩
abbrev main_call0_v14 : Ref sig .tc := ⟨.hbm, 28, rfl⟩
abbrev main_call0_c_7 : Ref sig .tc := ⟨.hbm, 29, rfl⟩
abbrev main_call0_v15 : Ref sig .tc := ⟨.hbm, 30, rfl⟩
abbrev main_call0_c_8 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_9 : Ref sig .tc := ⟨.hbm, 35, rfl⟩
abbrev main_call0_v19 : Ref sig .tc := ⟨.hbm, 36, rfl⟩
abbrev main_call0_c_10 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_c_11 : Ref sig .tc := ⟨.hbm, 41, rfl⟩
abbrev main_call0_v23 : Ref sig .tc := ⟨.hbm, 42, rfl⟩
abbrev main_call0_c_12 : Ref sig .tc := ⟨.hbm, 43, rfl⟩
abbrev main_call0_v24 : Ref sig .tc := ⟨.hbm, 44, rfl⟩
abbrev main_call0_v25 : Ref sig .tc := ⟨.hbm, 45, rfl⟩
abbrev main_call0_cst_13 : Ref sig .tc := ⟨.hbm, 46, rfl⟩
abbrev main_call0_v26 : Ref sig .tc := ⟨.hbm, 47, rfl⟩
abbrev main_call0_v27 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![25, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S17x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S17x129 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S129x65 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S65x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4096x200x17_S17x200x4096_2_1_0 : S4096x200x17.Transposes [2, 1, 0] S17x200x4096
  bcast_S_S17x129 : S_.BroadcastsInDim S17x129 (![] : Fin 0 → Fin S17x129.rank)
  bcast_S_S1 : S_.BroadcastsInDim S1 (![] : Fin 0 → Fin S1.rank)
  concatenates_S1_S1_S2_d0 : Shape.Concatenates [S1, S1] S2 0
  bcast_S_S129x65 : S_.BroadcastsInDim S129x65 (![] : Fin 0 → Fin S129x65.rank)
  transposes_S65x200x4096_S4096x200x65_2_1_0 : S65x200x4096.Transposes [2, 1, 0] S4096x200x65
  inb_S17x8x4096_S17x8x4096_0_0_0 : ∀ a, (![0, 0, 0] : Fin 3 → Nat) a + S17x8x4096.size a ≤ S17x8x4096.size a
  h_S17x8x4096 : 0 < S17x8x4096.numel
  shapeCasts_S17x8x4096_S17x8x4096 : S17x8x4096.ShapeCasts S17x8x4096
  shapeCasts_S17x8x4096_S17x32768 : S17x8x4096.ShapeCasts S17x32768
  slices_S17x32768_o16_0_S1x32768 : S17x32768.Slices ![16, 0] S1x32768
  broadcasts_S1x32768_S17x32768 : S1x32768.Broadcasts S17x32768
  inb_S17x129_S17x129_0_0 : ∀ a, (![0, 0] : Fin 2 → Nat) a + S17x129.size a ≤ S17x129.size a
  h_S17x129 : 0 < S17x129.numel
  shapeCasts_S17x129_S17x129 : S17x129.ShapeCasts S17x129
  inb_S129x65_S129x65_0_0 : ∀ a, (![0, 0] : Fin 2 → Nat) a + S129x65.size a ≤ S129x65.size a
  h_S129x65 : 0 < S129x65.numel
  shapeCasts_S129x65_S129x65 : S129x65.ShapeCasts S129x65
  shapeCasts_S65x32768_S65x8x4096 : S65x32768.ShapeCasts S65x8x4096
  inb_S65x8x4096_S65x8x4096_0_0_0 : ∀ a, (![0, 0, 0] : Fin 3 → Nat) a + S65x8x4096.size a ≤ S65x8x4096.size a
  h_S65x8x4096 : 0 < S65x8x4096.numel
  scatter_S17x129_S2_S16x128_01_n_01_0_wf : ScatterDims.WF S17x129 S2 S16x128 [0, 1] [] [0, 1] 0
  scatter_S17x129_S2_S128_0_0_01_0_wf : ScatterDims.WF S17x129 S2 S128 [0] [0] [0, 1] 0
  scatter_S17x129_S2_S__n_01_01_0_wf : ScatterDims.WF S17x129 S2 S_ [] [0, 1] [0, 1] 0
  scatter_S129x65_S2_S128x64_01_n_01_0_wf : ScatterDims.WF S129x65 S2 S128x64 [0, 1] [] [0, 1] 0
  scatter_S129x65_S2_S64_0_0_01_0_wf : ScatterDims.WF S129x65 S2 S64 [0] [0] [0, 1] 0
  scatter_S129x65_S2_S__n_01_01_0_wf : ScatterDims.WF S129x65 S2 S_ [] [0, 1] [0, 1] 0
  dot_S17x129_S17x32768_S129x32768_0_0_1_1_n_n_wf : DotDims.WF S17x129 S17x32768 S129x32768 [0] [0] [1] [1] [] []
  dot_S129x65_S129x32768_S65x32768_0_0_1_1_n_n_wf : DotDims.WF S129x65 S129x32768 S65x32768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S17x8x4096.size a ≤ S17x200x4096.size a
  hwx0_0 : ∀ i : grid0.Coords, EltTy.bits .f32 = 32 ∨ (Rect.block (s := S17x200x4096) S17x8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x129.size a ≤ S17x129.size a
  hwx0_1 : ∀ i : grid0.Coords, EltTy.bits .f32 = 32 ∨ (Rect.block (s := S17x129) S17x129.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x65.size a ≤ S129x65.size a
  hwx0_2 : ∀ i : grid0.Coords, EltTy.bits .f32 = 32 ∨ (Rect.block (s := S129x65) S129x65.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S65x8x4096.size a ≤ S65x200x4096.size a
  hwx0_3 : ∀ i : grid0.Coords, EltTy.bits .f32 = 32 ∨ (Rect.block (s := S65x200x4096) S65x8x4096.size (cc0_transform_3 i) (hinb0_3 i)).WholeWords (EltTy.packing .f32)

variable [Facts₀]

def scatter_S17x129_S2_S16x128_01_n_01_0 : ScatterDims S17x129 S2 S16x128 where
  updateWindowDims := [0, 1]
  insertedWindowDims := []
  scatterDimsToOperandDims := [0, 1]
  indexVectorDim := 0
  wf := scatter_S17x129_S2_S16x128_01_n_01_0_wf
def scatter_S17x129_S2_S128_0_0_01_0 : ScatterDims S17x129 S2 S128 where
  updateWindowDims := [0]
  insertedWindowDims := [0]
  scatterDimsToOperandDims := [0, 1]
  indexVectorDim := 0
  wf := scatter_S17x129_S2_S128_0_0_01_0_wf
def scatter_S17x129_S2_S__n_01_01_0 : ScatterDims S17x129 S2 S_ where
  updateWindowDims := []
  insertedWindowDims := [0, 1]
  scatterDimsToOperandDims := [0, 1]
  indexVectorDim := 0
  wf := scatter_S17x129_S2_S__n_01_01_0_wf
def scatter_S129x65_S2_S128x64_01_n_01_0 : ScatterDims S129x65 S2 S128x64 where
  updateWindowDims := [0, 1]
  insertedWindowDims := []
  scatterDimsToOperandDims := [0, 1]
  indexVectorDim := 0
  wf := scatter_S129x65_S2_S128x64_01_n_01_0_wf
def scatter_S129x65_S2_S64_0_0_01_0 : ScatterDims S129x65 S2 S64 where
  updateWindowDims := [0]
  insertedWindowDims := [0]
  scatterDimsToOperandDims := [0, 1]
  indexVectorDim := 0
  wf := scatter_S129x65_S2_S64_0_0_01_0_wf
def scatter_S129x65_S2_S__n_01_01_0 : ScatterDims S129x65 S2 S_ where
  updateWindowDims := []
  insertedWindowDims := [0, 1]
  scatterDimsToOperandDims := [0, 1]
  indexVectorDim := 0
  wf := scatter_S129x65_S2_S__n_01_01_0_wf
def dot_S17x129_S17x32768_S129x32768_0_0_1_1_n_n : DotDims S17x129 S17x32768 S129x32768 where
  lhsContracting := [0]
  rhsContracting := [0]
  lhsNonContracting := [1]
  rhsNonContracting := [1]
  lhsBatch := []
  rhsBatch := []
  wf := dot_S17x129_S17x32768_S129x32768_0_0_1_1_n_n_wf
def dot_S129x65_S129x32768_S65x32768_0_0_1_1_n_n : DotDims S129x65 S129x32768 S65x32768 where
  lhsContracting := [0]
  rhsContracting := [0]
  lhsNonContracting := [1]
  rhsNonContracting := [1]
  lhsBatch := []
  rhsBatch := []
  wf := dot_S129x65_S129x32768_S65x32768_0_0_1_1_n_n_wf

abbrev win0_0 : Pipeline.Window sig grid0 :=
  Pipeline.Window.ofSpec (Memref.whole main_call0_v0) S17x8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S17x129.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v26) S129x65.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S65x8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x200x17 : Shape := ⟨3, ![4096, 200, 17]⟩
abbrev S16x128 : Shape := ⟨2, ![16, 128]⟩
abbrev S128 : Shape := ⟨1, ![128]⟩
abbrev S128x64 : Shape := ⟨2, ![128, 64]⟩
abbrev S64 : Shape := ⟨1, ![64]⟩
abbrev S819200x17 : Shape := ⟨2, ![819200, 17]⟩
abbrev S819200x1 : Shape := ⟨2, ![819200, 1]⟩
abbrev S819200 : Shape := ⟨1, ![819200]⟩
abbrev S_ : Shape := ⟨0, ![]⟩
abbrev S819200x16 : Shape := ⟨2, ![819200, 16]⟩
abbrev S819200x128 : Shape := ⟨2, ![819200, 128]⟩
abbrev S1x128 : Shape := ⟨2, ![1, 128]⟩
abbrev S819200x64 : Shape := ⟨2, ![819200, 64]⟩
abbrev S1x64 : Shape := ⟨2, ![1, 64]⟩
abbrev S819200x65 : Shape := ⟨2, ![819200, 65]⟩
abbrev S4096x200x65 : Shape := ⟨3, ![4096, 200, 65]⟩

abbrev nBuf : Space → Nat
  | .hbm => 32
  | .vmem => 0
  | .smem => 0
  | _ => 0

abbrev bufTy : (tb : Table) → Fin (tcTables nBuf tb) → BufTy
  | .hbm, ⟨0, _⟩ => ⟨S4096x200x17, .f32⟩
  | .hbm, ⟨1, _⟩ => ⟨S16x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S819200x17, .f32⟩
  | .hbm, ⟨6, _⟩ => ⟨S819200x1, .f32⟩
  | .hbm, ⟨7, _⟩ => ⟨S819200, .f32⟩
  | .hbm, ⟨8, _⟩ => ⟨S_, .f32⟩
  | .hbm, ⟨9, _⟩ => ⟨S819200, .f32⟩
  | .hbm, ⟨10, _⟩ => ⟨S819200, .i1⟩
  | .hbm, ⟨11, _⟩ => ⟨S819200x16, .f32⟩
  | .hbm, ⟨12, _⟩ => ⟨S819200x128, .f32⟩
  | .hbm, ⟨13, _⟩ => ⟨S1x128, .f32⟩
  | .hbm, ⟨14, _⟩ => ⟨S819200x128, .f32⟩
  | .hbm, ⟨15, _⟩ => ⟨S819200x128, .f32⟩
  | .hbm, ⟨16, _⟩ => ⟨S_, .f32⟩
  | .hbm, ⟨17, _⟩ => ⟨S819200x128, .f32⟩
  | .hbm, ⟨18, _⟩ => ⟨S819200x128, .f32⟩
  | .hbm, ⟨19, _⟩ => ⟨S819200x64, .f32⟩
  | .hbm, ⟨20, _⟩ => ⟨S1x64, .f32⟩
  | .hbm, ⟨21, _⟩ => ⟨S819200x64, .f32⟩
  | .hbm, ⟨22, _⟩ => ⟨S819200x64, .f32⟩
  | .hbm, ⟨23, _⟩ => ⟨S_, .f32⟩
  | .hbm, ⟨24, _⟩ => ⟨S819200x1, .f32⟩
  | .hbm, ⟨25, _⟩ => ⟨S819200x65, .f32⟩
  | .hbm, ⟨26, _⟩ => ⟨S819200x1, .i1⟩
  | .hbm, ⟨27, _⟩ => ⟨S_, .f32⟩
  | .hbm, ⟨28, _⟩ => ⟨S819200x65, .i1⟩
  | .hbm, ⟨29, _⟩ => ⟨S819200x65, .f32⟩
  | .hbm, ⟨30, _⟩ => ⟨S819200x65, .f32⟩
  | .hbm, ⟨31, _⟩ => ⟨S4096x200x65, .f32⟩
  | _, _ => ⟨S4096x200x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  shapeCasts_S4096x200x17_S819200x17 : S4096x200x17.ShapeCasts S819200x17
  slices_S819200x17_S819200x1_0_16 : S819200x17.Slices ![0, 16] S819200x1
  shapeCasts_S819200x1_S819200 : S819200x1.ShapeCasts S819200
  bcast_S_S819200 : S_.BroadcastsInDim S819200 (![] : Fin 0 → Fin S819200.rank)
  slices_S819200x17_S819200x16_0_0 : S819200x17.Slices ![0, 0] S819200x16
  bcast_S128_S1x128_1 : S128.BroadcastsInDim S1x128 (![1] : Fin 1 → Fin S1x128.rank)
  bcast_S1x128_S819200x128_0_1 : S1x128.BroadcastsInDim S819200x128 (![0, 1] : Fin 2 → Fin S819200x128.rank)
  bcast_S_S819200x128 : S_.BroadcastsInDim S819200x128 (![] : Fin 0 → Fin S819200x128.rank)
  bcast_S64_S1x64_1 : S64.BroadcastsInDim S1x64 (![1] : Fin 1 → Fin S1x64.rank)
  bcast_S1x64_S819200x64_0_1 : S1x64.BroadcastsInDim S819200x64 (![0, 1] : Fin 2 → Fin S819200x64.rank)
  bcast_S_S819200x1 : S_.BroadcastsInDim S819200x1 (![] : Fin 0 → Fin S819200x1.rank)
  concatenates_S819200x64_S819200x1_S819200x65_d1 : Shape.Concatenates [S819200x64, S819200x1] S819200x65 1
  bcast_S819200_S819200x1_0 : S819200.BroadcastsInDim S819200x1 (![0] : Fin 1 → Fin S819200x1.rank)
  bcast_S819200x1_S819200x65_0_1 : S819200x1.BroadcastsInDim S819200x65 (![0, 1] : Fin 2 → Fin S819200x65.rank)
  bcast_S_S819200x65 : S_.BroadcastsInDim S819200x65 (![] : Fin 0 → Fin S819200x65.rank)
  shapeCasts_S819200x65_S4096x200x65 : S819200x65.ShapeCasts S4096x200x65
  dot_S819200x16_S16x128_S819200x128_1_0_0_1_n_n_wf : DotDims.WF S819200x16 S16x128 S819200x128 [1] [0] [0] [1] [] []
  dot_S819200x128_S128x64_S819200x64_1_0_0_1_n_n_wf : DotDims.WF S819200x128 S128x64 S819200x64 [1] [0] [0] [1] [] []

variable [Facts₀]

def dot_S819200x16_S16x128_S819200x128_1_0_0_1_n_n : DotDims S819200x16 S16x128 S819200x128 where
  lhsContracting := [1]
  rhsContracting := [0]
  lhsNonContracting := [0]
  rhsNonContracting := [1]
  lhsBatch := []
  rhsBatch := []
  wf := dot_S819200x16_S16x128_S819200x128_1_0_0_1_n_n_wf
def dot_S819200x128_S128x64_S819200x64_1_0_0_1_n_n : DotDims S819200x128 S128x64 S819200x64 where
  lhsContracting := [1]
  rhsContracting := [0]
  lhsNonContracting := [0]
  rhsNonContracting := [1]
  lhsBatch := []
  rhsBatch := []
  wf := dot_S819200x128_S128x64_S819200x64_1_0_0_1_n_n_wf

class Facts : Prop extends Facts₀ where

variable [Facts]
-- ==== Proof.MaskedMlp.lean ====
/-
  The masked two-layer perceptron, one particle at a time, in its two arrangements, and the law joining them.

  A particle is seventeen extended reals `x 0 … x 16`: sixteen features and a mask `x 16`.

  The AUGMENTED arrangement (`outAug`) carries the biases inside the weights. With `A` a 17 × 129 matrix and `B` a
  129 × 65 matrix it scales every entry of the particle by the mask, `x f · x 16`, contracts with `A`, rectifies, and
  contracts with `B`:  `outAug A B x c = Σₖ B k c · max (Σ_f A f k · (x f · x 16)) 0`.

  The PLAIN arrangement (`outPlain`) is the perceptron `W2ᵀ · relu (W1ᵀ · x + b1) + b2` on the sixteen features with a
  sixty-fifth output equal to one, the whole row replaced by zero unless the mask is exactly one.

  When `A` is `W1` with the row `b1` appended below it and a last column that is zero but for a one in the corner, and
  `B` is `W2`, `b2` and the same corner, the two agree on every particle whose mask is zero or one: at mask one the
  seventeenth term of each contraction is the bias (times one) and the corner column passes the one through both
  layers; at mask zero every scaled entry is zero, so both layers give zero. Only `0 · y = 0`, `1 · y = y`,
  commutativity and the splitting of a sum's last term are used, all of which hold on the extended reals with
  infinite entries too.
-/
import Idealize.ShloMosaic.PureOps.Ideal

noncomputable section

open scoped BigOperators

namespace Cert.MaskedMlp

/-- Hidden unit `k` of the augmented arrangement: the rectified contraction of column `k` of `A` with the
    mask-scaled particle. -/
def hidAug (A : Fin 17 → Fin 129 → EReal) (x : Fin 17 → EReal) (k : Fin 129) : EReal :=
  max (∑ f : Fin 17, A f k * (x f * x 16)) 0

/-- Output `c` of the augmented arrangement. -/
def outAug (A : Fin 17 → Fin 129 → EReal) (B : Fin 129 → Fin 65 → EReal) (x : Fin 17 → EReal) (c : Fin 65) : EReal :=
  ∑ k : Fin 129, B k c * hidAug A x k

/-- Hidden unit `k` of the plain perceptron on the sixteen features. -/
def hidPlain (W1 : Fin 16 → Fin 128 → EReal) (b1 : Fin 128 → EReal) (x : Fin 17 → EReal) (k : Fin 128) : EReal :=
  max (∑ f : Fin 16, x f.castSucc * W1 f k + b1 k) 0

/-- Output `c` of the plain arrangement: the perceptron's output and a final one where the mask is one, zero elsewhere. -/
def outPlain (W1 : Fin 16 → Fin 128 → EReal) (b1 : Fin 128 → EReal) (W2 : Fin 128 → Fin 64 → EReal) (b2 : Fin 64 → EReal)
    (x : Fin 17 → EReal) (c : Fin 65) : EReal :=
  if x 16 = 1 then
    (if h : c.val < 64 then ∑ k : Fin 128, hidPlain W1 b1 x k * W2 k ⟨c.val, h⟩ + b2 ⟨c.val, h⟩ else 1)
  else 0

/-- `A` is `W1` over the row `b1`, with a last column `(0, …, 0, 1)`. -/
def IsAug1 (W1 : Fin 16 → Fin 128 → EReal) (b1 : Fin 128 → EReal) (A : Fin 17 → Fin 129 → EReal) : Prop :=
  ∀ (f : Fin 17) (k : Fin 129), A f k =
    if hk : k.val < 128 then (if hf : f.val < 16 then W1 ⟨f.val, hf⟩ ⟨k.val, hk⟩ else b1 ⟨k.val, hk⟩)
    else (if f.val < 16 then 0 else 1)

/-- `B` is `W2` over the row `b2`, with a last column `(0, …, 0, 1)`. -/
def IsAug2 (W2 : Fin 128 → Fin 64 → EReal) (b2 : Fin 64 → EReal) (B : Fin 129 → Fin 65 → EReal) : Prop :=
  ∀ (k : Fin 129) (c : Fin 65), B k c =
    if hc : c.val < 64 then (if hk : k.val < 128 then W2 ⟨k.val, hk⟩ ⟨c.val, hc⟩ else b2 ⟨c.val, hc⟩)
    else (if k.val < 128 then 0 else 1)

variable {W1 : Fin 16 → Fin 128 → EReal} {b1 : Fin 128 → EReal} {W2 : Fin 128 → Fin 64 → EReal} {b2 : Fin 64 → EReal}
  {A : Fin 17 → Fin 129 → EReal} {B : Fin 129 → Fin 65 → EReal}

/-- At mask zero every hidden unit of the augmented arrangement is zero. -/
theorem hidAug_mask_zero (x : Fin 17 → EReal) (h0 : x 16 = 0) (k : Fin 129) : hidAug A x k = 0 := by
  unfold hidAug
  rw [h0]
  simp only [mul_zero, Finset.sum_const_zero, max_self]

/-- At mask one a hidden unit below the corner is the plain perceptron's. -/
theorem hidAug_mask_one_lt (hA : IsAug1 W1 b1 A) (x : Fin 17 → EReal) (h1 : x 16 = 1) (k : Fin 128) :
    hidAug A x k.castSucc = hidPlain W1 b1 x k := by
  unfold hidAug hidPlain
  rw [h1, Fin.sum_univ_castSucc]
  have hl : x (Fin.last 16) = 1 := h1
  congr 1
  congr 1
  · refine Finset.sum_congr rfl fun f _ => ?_
    rw [hA, dif_pos (show (k.castSucc : Fin 129).val < 128 from k.isLt), dif_pos (show (f.castSucc : Fin 17).val < 16 from f.isLt),
      mul_one, mul_comm]
    rfl
  · rw [hA, dif_pos (show (k.castSucc : Fin 129).val < 128 from k.isLt), dif_neg (show ¬ (Fin.last 16 : Fin 17).val < 16 from lt_irrefl 16),
      hl, mul_one, mul_one]
    rfl

/-- At mask one the corner hidden unit is one. -/
theorem hidAug_mask_one_last (hA : IsAug1 W1 b1 A) (x : Fin 17 → EReal) (h1 : x 16 = 1) :
    hidAug A x (Fin.last 128) = 1 := by
  unfold hidAug
  rw [h1, Fin.sum_univ_castSucc]
  have hl : x (Fin.last 16) = 1 := h1
  have hz : ∑ f : Fin 16, A f.castSucc (Fin.last 128) * (x f.castSucc * 1) = 0 :=
    Finset.sum_eq_zero fun f _ => by
      rw [hA, dif_neg (show ¬ (Fin.last 128 : Fin 129).val < 128 from lt_irrefl 128), if_pos (show (f.castSucc : Fin 17).val < 16 from f.isLt), zero_mul]
  rw [hz, hA, dif_neg (show ¬ (Fin.last 128 : Fin 129).val < 128 from lt_irrefl 128), if_neg (show ¬ (Fin.last 16 : Fin 17).val < 16 from lt_irrefl 16),
    hl, mul_one, mul_one, zero_add]
  exact max_eq_left zero_le_one

/-- THE LAW: on a particle whose mask is zero or one the augmented arrangement is the plain one. -/
theorem outAug_eq_outPlain (hA : IsAug1 W1 b1 A) (hB : IsAug2 W2 b2 B) (x : Fin 17 → EReal) (hx : x 16 = 0 ∨ x 16 = 1)
    (c : Fin 65) : outAug A B x c = outPlain W1 b1 W2 b2 x c := by
  rcases hx with h0 | h1
  · unfold outAug outPlain
    rw [if_neg (by rw [h0]; exact zero_ne_one)]
    exact Finset.sum_eq_zero fun k _ => by rw [hidAug_mask_zero x h0, mul_zero]
  · unfold outAug outPlain
    rw [if_pos h1, Fin.sum_univ_castSucc, hidAug_mask_one_last hA x h1, mul_one]
    by_cases hc : c.val < 64
    · rw [dif_pos hc, hB, dif_pos hc, dif_neg (show ¬ (Fin.last 128 : Fin 129).val < 128 from lt_irrefl 128)]
      congr 1
      refine Finset.sum_congr rfl fun k _ => ?_
      rw [hidAug_mask_one_lt hA x h1, hB, dif_pos hc, dif_pos (show (k.castSucc : Fin 129).val < 128 from k.isLt), mul_comm]
      rfl
    · rw [dif_neg hc, hB, dif_neg hc, if_neg (show ¬ (Fin.last 128 : Fin 129).val < 128 from lt_irrefl 128)]
      have hz : ∑ k : Fin 128, B k.castSucc c * hidAug A x k.castSucc = 0 :=
        Finset.sum_eq_zero fun k _ => by
          rw [hB, dif_neg hc, if_pos (show (k.castSucc : Fin 129).val < 128 from k.isLt), zero_mul]
      rw [hz, zero_add]

end Cert.MaskedMlp

end
-- ==== Proof.LibScatterSet.lean ====
/-
  A scatter whose body returns the update ("set"), read at an entry.

  `Host.scatter d (fun _ b => b) x idx upd` is the left fold, over the update indices in row-major order, of
  "replace the operand's element at the update's result index by the update's element". Read at one entry `i`
  of the operand:

  * if exactly one update index `j` lands on `i`, the result there is `upd j`;
  * if no update index lands on `i`, the result there is the operand's entry `x i`.

  The second part of the file computes where the update indices land for a rank-2 operand and ONE index vector of
  two words (row start, column start) in the three window configurations of `x.at[r0:r0+P, c0:c0+Q].set(block)`,
  `x.at[r0, c0:c0+Q].set(row)` and `x.at[r0, c0].set(scalar)`, and reads each of those scatters at an entry.
-/
import Idealize.ShloMosaic.Lib.ValueIdx
import Idealize.ShloMosaic.PureOps.Ideal

namespace Cert.LibScatterSet

open Idealize.ShloMosaic Idealize.ShloMosaic.ValueIdx

/-! ## Any dimension numbers: the fold read at an entry -/

section General
variable {s si u : Shape} {α : Type} {w : Nat}

/-- Folding the replace step over a list of update positions none of which lands on `i` leaves entry `i` of the
    accumulator as it was. -/
theorem foldl_set_miss (d : ScatterDims s si u) (idx : IVec si w) (upd : u.Idx → α) (i : s.Idx)
    (l : List (Fin u.numel)) (hl : ∀ n ∈ l, d.resultIdx? (u.rowMajor.symm n) idx ≠ some i) (r : s.Idx → α) :
    l.foldl (fun r n =>
        match d.resultIdx? (u.rowMajor.symm n) idx with
        | some i => fun i' => if i' = i then (fun _ b => b) (r i) (upd (u.rowMajor.symm n)) else r i'
        | none => r) r i = r i := by
  induction l generalizing r with
  | nil => rfl
  | cons n l ih =>
    rw [List.foldl_cons, ih (fun m hm => hl m (List.mem_cons_of_mem _ hm))]
    have hn := hl n (List.mem_cons_self ..)
    generalize d.resultIdx? (u.rowMajor.symm n) idx = o at hn ⊢
    cases o with
    | none => rfl
    | some i0 =>
      have hne : i ≠ i0 := fun h => hn (h ▸ rfl)
      exact if_neg hne

/-- Folding the replace step over a list without repeats in which position `n0` lands on `i` and is the only
    one that does leaves the update's element of `n0` at entry `i`. -/
theorem foldl_set_hit (d : ScatterDims s si u) (idx : IVec si w) (upd : u.Idx → α) (i : s.Idx) (n0 : Fin u.numel)
    (h0 : d.resultIdx? (u.rowMajor.symm n0) idx = some i)
    (l : List (Fin u.numel)) (hnd : l.Nodup) (hmem : n0 ∈ l)
    (huniq : ∀ n ∈ l, d.resultIdx? (u.rowMajor.symm n) idx = some i → n = n0) (r : s.Idx → α) :
    l.foldl (fun r n =>
        match d.resultIdx? (u.rowMajor.symm n) idx with
        | some i => fun i' => if i' = i then (fun _ b => b) (r i) (upd (u.rowMajor.symm n)) else r i'
        | none => r) r i = upd (u.rowMajor.symm n0) := by
  induction l generalizing r with
  | nil => exact absurd hmem (List.not_mem_nil)
  | cons n l ih =>
    rw [List.foldl_cons]
    have hnd' := List.nodup_cons.mp hnd
    by_cases hn : n = n0
    · subst hn
      rw [foldl_set_miss d idx upd i l (fun m hm hq => hnd'.1 ((huniq m (List.mem_cons_of_mem _ hm) hq) ▸ hm))]
      rw [h0]
      exact if_pos rfl
    · have hmem' : n0 ∈ l := by
        rcases List.mem_cons.mp hmem with h | h
        · exact absurd h.symm hn
        · exact h
      exact ih hnd'.2 hmem' (fun m hm => huniq m (List.mem_cons_of_mem _ hm)) _

/-- THE SET-SCATTER AT AN ENTRY THAT ONE UPDATE REACHES: if update index `j` lands on `i` and no other update
    index does, the result at `i` is `upd j`. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  have h0 : d.resultIdx? (u.rowMajor.symm (u.rowMajor j)) idx = some i := by rw [Equiv.symm_apply_apply]; exact hj
  have := foldl_set_hit d idx upd i (u.rowMajor j) h0 (List.finRange u.numel) (List.nodup_finRange _)
    (List.mem_finRange _)
    (fun n _ hq => by
      have := huniq _ hq
      rw [← this, Equiv.apply_symm_apply]) x
  rw [Equiv.symm_apply_apply] at this
  exact this

/-- THE SET-SCATTER AT AN ENTRY NO UPDATE REACHES: the operand's entry. -/
theorem scatter_set_miss (d : ScatterDims s si u) (x : s.Idx → α) (idx : IVec si w) (upd : u.Idx → α) (i : s.Idx)
    (hmiss : ∀ j, d.resultIdx? j idx ≠ some i) :
    Host.scatter d (fun _ b => b) x idx upd i = x i := by
  unfold Host.scatter
  exact foldl_set_miss d idx upd i (List.finRange u.numel) (fun n _ => hmiss _) x

end General

/-! ## A rank-2 operand and ONE index vector of two words

The scatter indices are one vector `[row start, column start] : [2]` (`index_vector_dim = 0`,
`scatter_dims_to_operand_dims = [0, 1]`): every update index reads the same two words, signed. Below they are the
naturals `r0` and `c0` (`hr`, `hc`), and the window lies inside the operand (`hA`, `hB`). -/

/-! ### A block: updates `[P, Q]`, both update axes window axes, nothing inserted -/

/-- `update_window_dims = [0, 1]`, `inserted_window_dims = []`, `scatter_dims_to_operand_dims = [0, 1]`,
    `index_vector_dim = 0`: what `x.at[r0:r0+P, c0:c0+Q].set(block)` lowers to. -/
abbrev blk (A B P Q : Nat) (wf : ScatterDims.WF ⟨2, ![A, B]⟩ ⟨1, ![2]⟩ ⟨2, ![P, Q]⟩ [0, 1] [] [0, 1] 0) :
    ScatterDims ⟨2, ![A, B]⟩ ⟨1, ![2]⟩ ⟨2, ![P, Q]⟩ where
  updateWindowDims := [0, 1]
  insertedWindowDims := []
  scatterDimsToOperandDims := [0, 1]
  indexVectorDim := 0
  wf := wf

section Blk
variable {A B P Q w : Nat} (wf : ScatterDims.WF ⟨2, ![A, B]⟩ ⟨1, ![2]⟩ ⟨2, ![P, Q]⟩ [0, 1] [] [0, 1] 0)

/-- On the row axis every update starts at the index vector's first word, read signed. -/
theorem blk_start0 (j : (⟨2, ![P, Q]⟩ : Shape).Idx) (idx : IVec ⟨1, ![2]⟩ w) :
    (blk A B P Q wf).start j idx 0 = (idx (ix1 (0 : Fin 2))).toInt := by
  unfold ScatterDims.start
  rw [dif_pos (show (0 : Fin 2) ∈ (blk A B P Q wf).scatterDimsToOperandDims from (by decide : (0 : Fin 2) ∈ [(0 : Fin 2), 1]))]
  have hsi : (blk A B P Q wf).siIdx j ⟨List.idxOf (0 : Fin 2) (blk A B P Q wf).scatterDimsToOperandDims,
      List.idxOf_lt_length_iff.2 (by decide : (0 : Fin 2) ∈ [(0 : Fin 2), 1])⟩ = ix1 (0 : Fin 2) := by
    funext b; refine Fin.ext ?_
    match b with
    | ⟨0, _⟩ => rfl
  rw [hsi]

/-- On the column axis every update starts at the index vector's second word, read signed. -/
theorem blk_start1 (j : (⟨2, ![P, Q]⟩ : Shape).Idx) (idx : IVec ⟨1, ![2]⟩ w) :
    (blk A B P Q wf).start j idx 1 = (idx (ix1 (1 : Fin 2))).toInt := by
  unfold ScatterDims.start
  rw [dif_pos (show (1 : Fin 2) ∈ (blk A B P Q wf).scatterDimsToOperandDims from (by decide : (1 : Fin 2) ∈ [(0 : Fin 2), 1]))]
  have hsi : (blk A B P Q wf).siIdx j ⟨List.idxOf (1 : Fin 2) (blk A B P Q wf).scatterDimsToOperandDims,
      List.idxOf_lt_length_iff.2 (by decide : (1 : Fin 2) ∈ [(0 : Fin 2), 1])⟩ = ix1 (1 : Fin 2) := by
    funext b; refine Fin.ext ?_
    match b with
    | ⟨0, _⟩ => rfl
  rw [hsi]

/-- The row axis carries the update's row. -/
theorem blk_window0 (j : (⟨2, ![P, Q]⟩ : Shape).Idx) : (blk A B P Q wf).window j 0 = (j 0).val := by
  unfold ScatterDims.window
  have h : (0 : Fin 2) ∈ (blk A B P Q wf).sKept :=
    (by decide : (0 : Fin 2) ∈ (List.finRange 2).filter (fun a => a ∉ ([] : List (Fin 2))))
  rw [dif_pos h]
  rfl

/-- The column axis carries the update's column. -/
theorem blk_window1 (j : (⟨2, ![P, Q]⟩ : Shape).Idx) : (blk A B P Q wf).window j 1 = (j 1).val := by
  unfold ScatterDims.window
  have h : (1 : Fin 2) ∈ (blk A B P Q wf).sKept :=
    (by decide : (1 : Fin 2) ∈ (List.finRange 2).filter (fun a => a ∉ ([] : List (Fin 2))))
  rw [dif_pos h]
  rfl

/-- UPDATE `(p, q)` LANDS ON ENTRY `(r0 + p, c0 + q)`. -/
theorem blk_resultIdx (idx : IVec ⟨1, ![2]⟩ w) (r0 c0 : Nat)
    (hr : (idx (ix1 (0 : Fin 2))).toInt = (r0 : Int)) (hc : (idx (ix1 (1 : Fin 2))).toInt = (c0 : Int))
    (hA : r0 + P ≤ A) (hB : c0 + Q ≤ B) (p : Fin P) (q : Fin Q) :
    (blk A B P Q wf).resultIdx? (ix2 p q) idx
      = some (ix2 (⟨r0 + p.val, by omega⟩ : Fin A) (⟨c0 + q.val, by omega⟩ : Fin B)) := by
  have hs0 : (blk A B P Q wf).start (ix2 p q) idx 0 + ((blk A B P Q wf).window (ix2 p q) 0 : Int)
      = ((r0 + p.val : Nat) : Int) := by
    rw [blk_start0, blk_window0, hr]; push_cast; rfl
  have hs1 : (blk A B P Q wf).start (ix2 p q) idx 1 + ((blk A B P Q wf).window (ix2 p q) 1 : Int)
      = ((c0 + q.val : Nat) : Int) := by
    rw [blk_start1, blk_window1, hc]; push_cast; rfl
  have hp := p.isLt
  have hq := q.isLt
  unfold ScatterDims.resultIdx?
  have h : ∀ a, 0 ≤ (blk A B P Q wf).start (ix2 p q) idx a + ((blk A B P Q wf).window (ix2 p q) a : Int)
      ∧ (blk A B P Q wf).start (ix2 p q) idx a + ((blk A B P Q wf).window (ix2 p q) a : Int)
        < ((⟨2, ![A, B]⟩ : Shape).size a : Int) := by
    intro a
    match a with
    | ⟨0, _⟩ =>
      show 0 ≤ (blk A B P Q wf).start (ix2 p q) idx 0 + ((blk A B P Q wf).window (ix2 p q) 0 : Int)
        ∧ (blk A B P Q wf).start (ix2 p q) idx 0 + ((blk A B P Q wf).window (ix2 p q) 0 : Int) < ((A : Nat) : Int)
      rw [hs0]; omega
    | ⟨1, _⟩ =>
      show 0 ≤ (blk A B P Q wf).start (ix2 p q) idx 1 + ((blk A B P Q wf).window (ix2 p q) 1 : Int)
        ∧ (blk A B P Q wf).start (ix2 p q) idx 1 + ((blk A B P Q wf).window (ix2 p q) 1 : Int) < ((B : Nat) : Int)
      rw [hs1]; omega
  rw [dif_pos h]
  refine congrArg some ?_
  funext a
  refine Fin.ext ?_
  match a with
  | ⟨0, _⟩ =>
    show ((blk A B P Q wf).start (ix2 p q) idx 0 + ((blk A B P Q wf).window (ix2 p q) 0 : Int)).toNat = r0 + p.val
    rw [hs0]; exact Int.toNat_natCast _
  | ⟨1, _⟩ =>
    show ((blk A B P Q wf).start (ix2 p q) idx 1 + ((blk A B P Q wf).window (ix2 p q) 1 : Int)).toNat = c0 + q.val
    rw [hs1]; exact Int.toNat_natCast _

/-- THE BLOCK SET AT AN ENTRY: inside the window `[r0, r0 + P) × [c0, c0 + Q)` the update's element at the entry's
    offset into the window, outside it the operand's entry. -/
theorem blk_apply {α : Type} (x : (⟨2, ![A, B]⟩ : Shape).Idx → α) (idx : IVec ⟨1, ![2]⟩ w)
    (upd : (⟨2, ![P, Q]⟩ : Shape).Idx → α) (r0 c0 : Nat)
    (hr : (idx (ix1 (0 : Fin 2))).toInt = (r0 : Int)) (hc : (idx (ix1 (1 : Fin 2))).toInt = (c0 : Int))
    (hA : r0 + P ≤ A) (hB : c0 + Q ≤ B) (r : Fin A) (c : Fin B) :
    Host.scatter (blk A B P Q wf) (fun _ b => b) x idx upd (ix2 r c)
      = if h : (r0 ≤ r.val ∧ r.val < r0 + P) ∧ (c0 ≤ c.val ∧ c.val < c0 + Q) then
          upd (ix2 (⟨r.val - r0, by omega⟩ : Fin P) (⟨c.val - c0, by omega⟩ : Fin Q))
        else x (ix2 r c) := by
  have key : ∀ j' : (⟨2, ![P, Q]⟩ : Shape).Idx, (blk A B P Q wf).resultIdx? j' idx = some (ix2 r c) →
      r0 + (j' 0).val = r.val ∧ c0 + (j' 1).val = c.val := by
    intro j' hj'
    have e := blk_resultIdx wf idx r0 c0 hr hc hA hB (j' 0) (j' 1)
    rw [eq_ix2 j'] at hj'
    have e' := Option.some.inj (e.symm.trans hj')
    exact ⟨congrArg (fun f : (⟨2, ![A, B]⟩ : Shape).Idx => (f 0).val) e',
      congrArg (fun f : (⟨2, ![A, B]⟩ : Shape).Idx => (f 1).val) e'⟩
  by_cases h : (r0 ≤ r.val ∧ r.val < r0 + P) ∧ (c0 ≤ c.val ∧ c.val < c0 + Q)
  · rw [dif_pos h]
    refine scatter_set_hit _ x idx upd _ _ ?_ ?_
    · rw [blk_resultIdx wf idx r0 c0 hr hc hA hB]
      refine congrArg some ?_
      funext a
      refine Fin.ext ?_
      match a with
      | ⟨0, _⟩ => show r0 + (r.val - r0) = r.val; omega
      | ⟨1, _⟩ => show c0 + (c.val - c0) = c.val; omega
    · intro j' hj'
      have hk := key j' hj'
      rw [eq_ix2 j']
      funext a
      refine Fin.ext ?_
      match a with
      | ⟨0, _⟩ => show (j' 0).val = r.val - r0; omega
      | ⟨1, _⟩ => show (j' 1).val = c.val - c0; omega
  · rw [dif_neg h]
    refine scatter_set_miss _ x idx upd _ ?_
    intro j' hj'
    have hk := key j' hj'
    have h0 := idx2_lt0 j'
    have h1 := idx2_lt1 j'
    exact h ⟨⟨by omega, by omega⟩, ⟨by omega, by omega⟩⟩

end Blk

/-! ### A row: updates `[Q]`, the update axis a window axis on the columns, the row axis inserted -/

/-- `update_window_dims = [0]`, `inserted_window_dims = [0]`, `scatter_dims_to_operand_dims = [0, 1]`,
    `index_vector_dim = 0`: what `x.at[r0, c0:c0+Q].set(row)` lowers to. -/
abbrev row (A B Q : Nat) (wf : ScatterDims.WF ⟨2, ![A, B]⟩ ⟨1, ![2]⟩ ⟨1, ![Q]⟩ [0] [0] [0, 1] 0) :
    ScatterDims ⟨2, ![A, B]⟩ ⟨1, ![2]⟩ ⟨1, ![Q]⟩ where
  updateWindowDims := [0]
  insertedWindowDims := [0]
  scatterDimsToOperandDims := [0, 1]
  indexVectorDim := 0
  wf := wf

section Row
variable {A B Q w : Nat} (wf : ScatterDims.WF ⟨2, ![A, B]⟩ ⟨1, ![2]⟩ ⟨1, ![Q]⟩ [0] [0] [0, 1] 0)

/-- On the row axis every update starts at the index vector's first word, read signed. -/
theorem row_start0 (j : (⟨1, ![Q]⟩ : Shape).Idx) (idx : IVec ⟨1, ![2]⟩ w) :
    (row A B Q wf).start j idx 0 = (idx (ix1 (0 : Fin 2))).toInt := by
  unfold ScatterDims.start
  rw [dif_pos (show (0 : Fin 2) ∈ (row A B Q wf).scatterDimsToOperandDims from (by decide : (0 : Fin 2) ∈ [(0 : Fin 2), 1]))]
  have hsi : (row A B Q wf).siIdx j ⟨List.idxOf (0 : Fin 2) (row A B Q wf).scatterDimsToOperandDims,
      List.idxOf_lt_length_iff.2 (by decide : (0 : Fin 2) ∈ [(0 : Fin 2), 1])⟩ = ix1 (0 : Fin 2) := by
    funext b; refine Fin.ext ?_
    match b with
    | ⟨0, _⟩ => rfl
  rw [hsi]

/-- On the column axis every update starts at the index vector's second word, read signed. -/
theorem row_start1 (j : (⟨1, ![Q]⟩ : Shape).Idx) (idx : IVec ⟨1, ![2]⟩ w) :
    (row A B Q wf).start j idx 1 = (idx (ix1 (1 : Fin 2))).toInt := by
  unfold ScatterDims.start
  rw [dif_pos (show (1 : Fin 2) ∈ (row A B Q wf).scatterDimsToOperandDims from (by decide : (1 : Fin 2) ∈ [(0 : Fin 2), 1]))]
  have hsi : (row A B Q wf).siIdx j ⟨List.idxOf (1 : Fin 2) (row A B Q wf).scatterDimsToOperandDims,
      List.idxOf_lt_length_iff.2 (by decide : (1 : Fin 2) ∈ [(0 : Fin 2), 1])⟩ = ix1 (1 : Fin 2) := by
    funext b; refine Fin.ext ?_
    match b with
    | ⟨0, _⟩ => rfl
  rw [hsi]

/-- The row axis is inserted: no window coordinate. -/
theorem row_window0 (j : (⟨1, ![Q]⟩ : Shape).Idx) : (row A B Q wf).window j 0 = 0 := by
  unfold ScatterDims.window
  have h : (0 : Fin 2) ∉ (row A B Q wf).sKept :=
    (by decide : (0 : Fin 2) ∉ (List.finRange 2).filter (fun a => a ∉ [(0 : Fin 2)]))
  rw [dif_neg h]

/-- The column axis carries the update's coordinate. -/
theorem row_window1 (j : (⟨1, ![Q]⟩ : Shape).Idx) : (row A B Q wf).window j 1 = (j 0).val := by
  unfold ScatterDims.window
  have h : (1 : Fin 2) ∈ (row A B Q wf).sKept :=
    (by decide : (1 : Fin 2) ∈ (List.finRange 2).filter (fun a => a ∉ [(0 : Fin 2)]))
  rw [dif_pos h]
  rfl

/-- UPDATE `q` LANDS ON ENTRY `(r0, c0 + q)`. -/
theorem row_resultIdx (idx : IVec ⟨1, ![2]⟩ w) (r0 c0 : Nat)
    (hr : (idx (ix1 (0 : Fin 2))).toInt = (r0 : Int)) (hc : (idx (ix1 (1 : Fin 2))).toInt = (c0 : Int))
    (hA : r0 < A) (hB : c0 + Q ≤ B) (q : Fin Q) :
    (row A B Q wf).resultIdx? (ix1 q) idx
      = some (ix2 (⟨r0, hA⟩ : Fin A) (⟨c0 + q.val, by omega⟩ : Fin B)) := by
  have hs0 : (row A B Q wf).start (ix1 q) idx 0 + ((row A B Q wf).window (ix1 q) 0 : Int) = ((r0 : Nat) : Int) := by
    rw [row_start0, row_window0, hr]; push_cast; omega
  have hs1 : (row A B Q wf).start (ix1 q) idx 1 + ((row A B Q wf).window (ix1 q) 1 : Int)
      = ((c0 + q.val : Nat) : Int) := by
    rw [row_start1, row_window1, hc]; push_cast; rfl
  have hq := q.isLt
  unfold ScatterDims.resultIdx?
  have h : ∀ a, 0 ≤ (row A B Q wf).start (ix1 q) idx a + ((row A B Q wf).window (ix1 q) a : Int)
      ∧ (row A B Q wf).start (ix1 q) idx a + ((row A B Q wf).window (ix1 q) a : Int)
        < ((⟨2, ![A, B]⟩ : Shape).size a : Int) := by
    intro a
    match a with
    | ⟨0, _⟩ =>
      show 0 ≤ (row A B Q wf).start (ix1 q) idx 0 + ((row A B Q wf).window (ix1 q) 0 : Int)
        ∧ (row A B Q wf).start (ix1 q) idx 0 + ((row A B Q wf).window (ix1 q) 0 : Int) < ((A : Nat) : Int)
      rw [hs0]; omega
    | ⟨1, _⟩ =>
      show 0 ≤ (row A B Q wf).start (ix1 q) idx 1 + ((row A B Q wf).window (ix1 q) 1 : Int)
        ∧ (row A B Q wf).start (ix1 q) idx 1 + ((row A B Q wf).window (ix1 q) 1 : Int) < ((B : Nat) : Int)
      rw [hs1]; omega
  rw [dif_pos h]
  refine congrArg some ?_
  funext a
  refine Fin.ext ?_
  match a with
  | ⟨0, _⟩ =>
    show ((row A B Q wf).start (ix1 q) idx 0 + ((row A B Q wf).window (ix1 q) 0 : Int)).toNat = r0
    rw [hs0]; exact Int.toNat_natCast _
  | ⟨1, _⟩ =>
    show ((row A B Q wf).start (ix1 q) idx 1 + ((row A B Q wf).window (ix1 q) 1 : Int)).toNat = c0 + q.val
    rw [hs1]; exact Int.toNat_natCast _

/-- THE ROW SET AT AN ENTRY: on row `r0`, columns `[c0, c0 + Q)`, the update's element at the column's offset,
    elsewhere the operand's entry. -/
theorem row_apply {α : Type} (x : (⟨2, ![A, B]⟩ : Shape).Idx → α) (idx : IVec ⟨1, ![2]⟩ w)
    (upd : (⟨1, ![Q]⟩ : Shape).Idx → α) (r0 c0 : Nat)
    (hr : (idx (ix1 (0 : Fin 2))).toInt = (r0 : Int)) (hc : (idx (ix1 (1 : Fin 2))).toInt = (c0 : Int))
    (hA : r0 < A) (hB : c0 + Q ≤ B) (r : Fin A) (c : Fin B) :
    Host.scatter (row A B Q wf) (fun _ b => b) x idx upd (ix2 r c)
      = if h : r.val = r0 ∧ (c0 ≤ c.val ∧ c.val < c0 + Q) then
          upd (ix1 (⟨c.val - c0, by omega⟩ : Fin Q))
        else x (ix2 r c) := by
  have key : ∀ j' : (⟨1, ![Q]⟩ : Shape).Idx, (row A B Q wf).resultIdx? j' idx = some (ix2 r c) →
      r0 = r.val ∧ c0 + (j' 0).val = c.val := by
    intro j' hj'
    have e := row_resultIdx wf idx r0 c0 hr hc hA hB (j' 0)
    rw [eq_ix1 j'] at hj'
    have e' := Option.some.inj (e.symm.trans hj')
    exact ⟨congrArg (fun f : (⟨2, ![A, B]⟩ : Shape).Idx => (f 0).val) e',
      congrArg (fun f : (⟨2, ![A, B]⟩ : Shape).Idx => (f 1).val) e'⟩
  by_cases h : r.val = r0 ∧ (c0 ≤ c.val ∧ c.val < c0 + Q)
  · rw [dif_pos h]
    refine scatter_set_hit _ x idx upd _ _ ?_ ?_
    · rw [row_resultIdx wf idx r0 c0 hr hc hA hB]
      refine congrArg some ?_
      funext a
      refine Fin.ext ?_
      match a with
      | ⟨0, _⟩ => show r0 = r.val; omega
      | ⟨1, _⟩ => show c0 + (c.val - c0) = c.val; omega
    · intro j' hj'
      have hk := key j' hj'
      rw [eq_ix1 j']
      funext a
      refine Fin.ext ?_
      match a with
      | ⟨0, _⟩ => show (j' 0).val = c.val - c0; omega
  · rw [dif_neg h]
    refine scatter_set_miss _ x idx upd _ ?_
    intro j' hj'
    have hk := key j' hj'
    have h0 : (j' 0).val < Q := (j' 0).isLt
    exact h ⟨by omega, by omega, by omega⟩

end Row

/-! ### A point: a scalar update, both operand axes inserted -/

/-- `update_window_dims = []`, `inserted_window_dims = [0, 1]`, `scatter_dims_to_operand_dims = [0, 1]`,
    `index_vector_dim = 0`: what `x.at[r0, c0].set(scalar)` lowers to. -/
abbrev pt (A B : Nat) (wf : ScatterDims.WF ⟨2, ![A, B]⟩ ⟨1, ![2]⟩ ⟨0, ![]⟩ [] [0, 1] [0, 1] 0) :
    ScatterDims ⟨2, ![A, B]⟩ ⟨1, ![2]⟩ ⟨0, ![]⟩ where
  updateWindowDims := []
  insertedWindowDims := [0, 1]
  scatterDimsToOperandDims := [0, 1]
  indexVectorDim := 0
  wf := wf

section Pt
variable {A B w : Nat} (wf : ScatterDims.WF ⟨2, ![A, B]⟩ ⟨1, ![2]⟩ ⟨0, ![]⟩ [] [0, 1] [0, 1] 0)

/-- On the row axis the update starts at the index vector's first word, read signed. -/
theorem pt_start0 (j : (⟨0, ![]⟩ : Shape).Idx) (idx : IVec ⟨1, ![2]⟩ w) :
    (pt A B wf).start j idx 0 = (idx (ix1 (0 : Fin 2))).toInt := by
  unfold ScatterDims.start
  rw [dif_pos (show (0 : Fin 2) ∈ (pt A B wf).scatterDimsToOperandDims from (by decide : (0 : Fin 2) ∈ [(0 : Fin 2), 1]))]
  have hsi : (pt A B wf).siIdx j ⟨List.idxOf (0 : Fin 2) (pt A B wf).scatterDimsToOperandDims,
      List.idxOf_lt_length_iff.2 (by decide : (0 : Fin 2) ∈ [(0 : Fin 2), 1])⟩ = ix1 (0 : Fin 2) := by
    funext b; refine Fin.ext ?_
    match b with
    | ⟨0, _⟩ => rfl
  rw [hsi]

/-- On the column axis the update starts at the index vector's second word, read signed. -/
theorem pt_start1 (j : (⟨0, ![]⟩ : Shape).Idx) (idx : IVec ⟨1, ![2]⟩ w) :
    (pt A B wf).start j idx 1 = (idx (ix1 (1 : Fin 2))).toInt := by
  unfold ScatterDims.start
  rw [dif_pos (show (1 : Fin 2) ∈ (pt A B wf).scatterDimsToOperandDims from (by decide : (1 : Fin 2) ∈ [(0 : Fin 2), 1]))]
  have hsi : (pt A B wf).siIdx j ⟨List.idxOf (1 : Fin 2) (pt A B wf).scatterDimsToOperandDims,
      List.idxOf_lt_length_iff.2 (by decide : (1 : Fin 2) ∈ [(0 : Fin 2), 1])⟩ = ix1 (1 : Fin 2) := by
    funext b; refine Fin.ext ?_
    match b with
    | ⟨0, _⟩ => rfl
  rw [hsi]

/-- Both axes are inserted: no window coordinate. -/
theorem pt_window (j : (⟨0, ![]⟩ : Shape).Idx) (a : Fin 2) : (pt A B wf).window j a = 0 := by
  unfold ScatterDims.window
  have h : a ∉ (pt A B wf).sKept := by
    have : ∀ a : Fin 2, a ∉ (List.finRange 2).filter (fun a => a ∉ [(0 : Fin 2), 1]) := by decide
    exact this a
  rw [dif_neg h]

/-- THE ONE UPDATE LANDS ON ENTRY `(r0, c0)`. -/
theorem pt_resultIdx (idx : IVec ⟨1, ![2]⟩ w) (r0 c0 : Nat)
    (hr : (idx (ix1 (0 : Fin 2))).toInt = (r0 : Int)) (hc : (idx (ix1 (1 : Fin 2))).toInt = (c0 : Int))
    (hA : r0 < A) (hB : c0 < B) (j : (⟨0, ![]⟩ : Shape).Idx) :
    (pt A B wf).resultIdx? j idx = some (ix2 (⟨r0, hA⟩ : Fin A) (⟨c0, hB⟩ : Fin B)) := by
  have hs0 : (pt A B wf).start j idx 0 + ((pt A B wf).window j 0 : Int) = ((r0 : Nat) : Int) := by
    rw [pt_start0, pt_window, hr]; push_cast; omega
  have hs1 : (pt A B wf).start j idx 1 + ((pt A B wf).window j 1 : Int) = ((c0 : Nat) : Int) := by
    rw [pt_start1, pt_window, hc]; push_cast; omega
  unfold ScatterDims.resultIdx?
  have h : ∀ a, 0 ≤ (pt A B wf).start j idx a + ((pt A B wf).window j a : Int)
      ∧ (pt A B wf).start j idx a + ((pt A B wf).window j a : Int)
        < ((⟨2, ![A, B]⟩ : Shape).size a : Int) := by
    intro a
    match a with
    | ⟨0, _⟩ =>
      show 0 ≤ (pt A B wf).start j idx 0 + ((pt A B wf).window j 0 : Int)
        ∧ (pt A B wf).start j idx 0 + ((pt A B wf).window j 0 : Int) < ((A : Nat) : Int)
      rw [hs0]; omega
    | ⟨1, _⟩ =>
      show 0 ≤ (pt A B wf).start j idx 1 + ((pt A B wf).window j 1 : Int)
        ∧ (pt A B wf).start j idx 1 + ((pt A B wf).window j 1 : Int) < ((B : Nat) : Int)
      rw [hs1]; omega
  rw [dif_pos h]
  refine congrArg some ?_
  funext a
  refine Fin.ext ?_
  match a with
  | ⟨0, _⟩ =>
    show ((pt A B wf).start j idx 0 + ((pt A B wf).window j 0 : Int)).toNat = r0
    rw [hs0]; exact Int.toNat_natCast _
  | ⟨1, _⟩ =>
    show ((pt A B wf).start j idx 1 + ((pt A B wf).window j 1 : Int)).toNat = c0
    rw [hs1]; exact Int.toNat_natCast _

/-- THE POINT SET AT AN ENTRY: at `(r0, c0)` the scalar, elsewhere the operand's entry. -/
theorem pt_apply {α : Type} (x : (⟨2, ![A, B]⟩ : Shape).Idx → α) (idx : IVec ⟨1, ![2]⟩ w)
    (upd : (⟨0, ![]⟩ : Shape).Idx → α) (r0 c0 : Nat)
    (hr : (idx (ix1 (0 : Fin 2))).toInt = (r0 : Int)) (hc : (idx (ix1 (1 : Fin 2))).toInt = (c0 : Int))
    (hA : r0 < A) (hB : c0 < B) (r : Fin A) (c : Fin B) :
    Host.scatter (pt A B wf) (fun _ b => b) x idx upd (ix2 r c)
      = if r.val = r0 ∧ c.val = c0 then upd ix0 else x (ix2 r c) := by
  by_cases h : r.val = r0 ∧ c.val = c0
  · rw [if_pos h]
    refine scatter_set_hit _ x idx upd _ _ ?_ ?_
    · rw [pt_resultIdx wf idx r0 c0 hr hc hA hB]
      refine congrArg some ?_
      funext a
      refine Fin.ext ?_
      match a with
      | ⟨0, _⟩ => show r0 = r.val; omega
      | ⟨1, _⟩ => show c0 = c.val; omega
    · intro j' _
      exact eq_ix0 j'
  · rw [if_neg h]
    refine scatter_set_miss _ x idx upd _ ?_
    intro j' hj'
    have e' := Option.some.inj ((pt_resultIdx wf idx r0 c0 hr hc hA hB j').symm.trans hj')
    have e0 : r0 = r.val := congrArg (fun f : (⟨2, ![A, B]⟩ : Shape).Idx => (f 0).val) e'
    have e1 : c0 = c.val := congrArg (fun f : (⟨2, ![A, B]⟩ : Shape).Idx => (f 1).val) e'
    exact h ⟨e0.symm, e1.symm⟩

end Pt

end Cert.LibScatterSet
-- ==== Proof.AugWeights.lean ====
/-
  The two augmented weight matrices the host prefix builds, read at an entry.

  The host writes, into a `[17, 129]` array of zeros, the block `W1 : [16, 128]` at `(0, 0)`, the row
  `b1 : [128]` at `(16, 0)` and the scalar one at `(16, 128)`; and into a `[129, 65]` array of zeros the block
  `W2 : [128, 64]` at `(0, 0)`, the row `b2 : [64]` at `(128, 0)` and the scalar one at `(128, 64)`. Each write is a
  scatter whose body returns the update, at ONE index vector of two words. `w1aug` / `w2aug` are those compositions,
  spelt with the host operations as they are printed; `w1aug_apply` / `w2aug_apply` read them at an entry:

      w1aug W1 b1 (f, k) = W1 (f, k)   (f < 16, k < 128)        w2aug W2 b2 (k, c) = W2 (k, c)   (k < 128, c < 64)
                         = b1 k        (f = 16, k < 128)                           = b2 c        (k = 128, c < 64)
                         = 0           (f < 16, k = 128)                           = 0           (k < 128, c = 64)
                         = 1           (f = 16, k = 128)                           = 1           (k = 128, c = 64)

  so that `Σ_f w1aug (f, k) · x̃ f` with `x̃ 16 = 1` is the affine map `x ↦ W1ᵀ x + b1` on `k < 128` and the constant
  one on `k = 128`, and likewise for the second layer.
-/
import proofs.«126524_g6803228197629_cont_sun_m_885_19_alg».proof.KernelIdeal
import proofs.«126524_g6803228197629_cont_sun_m_885_19_alg».proof.Proof.LibScatterSet
import Idealize.ShloMosaic.Lib.IdealHost

noncomputable section

namespace Cert.KernelIdeal.Aug

open Idealize.ShloMosaic Idealize.ShloMosaic.ValueIdx Cert.KernelIdeal Cert.LibScatterSet
open Cert.KernelIdeal.Facts₀ Cert.KernelIdeal.Facts

variable [Cert.KernelIdeal.Facts]

/-- The index vector `[r0, c0] : [2]` as the host builds it: two scalar constants, each broadcast to `[1]`,
    concatenated. -/
abbrev startVec (r0 c0 : BitVec 32) : IVec S2 32 :=
  concatenate S2 0 [⟨S1, broadcastInDim S1 ![] bcast_S_S1 (constantI S_ 32 r0)⟩,
    ⟨S1, broadcastInDim S1 ![] bcast_S_S1 (constantI S_ 32 c0)⟩] concatenates_S1_S1_S2_d0

/-- Its first word is the row start. -/
theorem startVec_row (r0 c0 : BitVec 32) : startVec r0 c0 (ix1 (0 : Fin 2)) = r0 := rfl
/-- Its second word is the column start. -/
theorem startVec_col (r0 c0 : BitVec 32) : startVec r0 c0 (ix1 (1 : Fin 2)) = c0 := rfl

/-- The first layer's augmented weights `[17, 129]`: zeros, then `W1` at `(0, 0)`, `b1` on row 16 from column 0,
    one at `(16, 128)`. -/
def w1aug (W1 : FVec Ideal S16x128 .f32) (b1 : FVec Ideal S128 .f32) : FVec Ideal S17x129 .f32 :=
  Host.scatter scatter_S17x129_S2_S__n_01_01_0 (fun _ b => b)
    (Host.scatter scatter_S17x129_S2_S128_0_0_01_0 (fun _ b => b)
      (Host.scatter scatter_S17x129_S2_S16x128_01_n_01_0 (fun _ b => b)
        (broadcastInDim S17x129 ![] bcast_S_S17x129 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        W1)
      (concatenate S2 0 [⟨S1, broadcastInDim S1 ![] bcast_S_S1 (constantI S_ 32 16#32)⟩, ⟨S1, broadcastInDim S1 ![] bcast_S_S1 (constantI S_ 32 0#32)⟩] concatenates_S1_S1_S2_d0)
      b1)
    (concatenate S2 0 [⟨S1, broadcastInDim S1 ![] bcast_S_S1 (constantI S_ 32 16#32)⟩, ⟨S1, broadcastInDim S1 ![] bcast_S_S1 (constantI S_ 32 128#32)⟩] concatenates_S1_S1_S2_d0)
    (constant (F := Ideal) S_ .f32 0x3F800000#32)

/-- The second layer's augmented weights `[129, 65]`: zeros, then `W2` at `(0, 0)`, `b2` on row 128 from column 0,
    one at `(128, 64)`. -/
def w2aug (W2 : FVec Ideal S128x64 .f32) (b2 : FVec Ideal S64 .f32) : FVec Ideal S129x65 .f32 :=
  Host.scatter scatter_S129x65_S2_S__n_01_01_0 (fun _ b => b)
    (Host.scatter scatter_S129x65_S2_S64_0_0_01_0 (fun _ b => b)
      (Host.scatter scatter_S129x65_S2_S128x64_01_n_01_0 (fun _ b => b)
        (broadcastInDim S129x65 ![] bcast_S_S129x65 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        W2)
      (concatenate S2 0 [⟨S1, broadcastInDim S1 ![] bcast_S_S1 (constantI S_ 32 128#32)⟩, ⟨S1, broadcastInDim S1 ![] bcast_S_S1 (constantI S_ 32 0#32)⟩] concatenates_S1_S1_S2_d0)
      b2)
    (concatenate S2 0 [⟨S1, broadcastInDim S1 ![] bcast_S_S1 (constantI S_ 32 128#32)⟩, ⟨S1, broadcastInDim S1 ![] bcast_S_S1 (constantI S_ 32 64#32)⟩] concatenates_S1_S1_S2_d0)
    (constant (F := Ideal) S_ .f32 0x3F800000#32)

/-- THE FIRST LAYER'S AUGMENTED WEIGHTS AT AN ENTRY. -/
theorem w1aug_apply (W1 : FVec Ideal S16x128 .f32) (b1 : FVec Ideal S128 .f32) (f : Fin 17) (k : Fin 129) :
    w1aug W1 b1 (ix2 f k)
      = if hk : k.val < 128 then
          (if hf : f.val < 16 then W1 (ix2 (⟨f.val, hf⟩ : Fin 16) (⟨k.val, hk⟩ : Fin 128))
            else b1 (ix1 (⟨k.val, hk⟩ : Fin 128)))
        else (if f.val < 16 then (0 : EReal) else 1) := by
  have hf17 := f.isLt
  have hk129 := k.isLt
  unfold w1aug
  show Host.scatter (pt 17 129 scatter_S17x129_S2_S__n_01_01_0_wf) (fun _ b => b)
    (Host.scatter (row 17 129 128 scatter_S17x129_S2_S128_0_0_01_0_wf) (fun _ b => b)
      (Host.scatter (blk 17 129 16 128 scatter_S17x129_S2_S16x128_01_n_01_0_wf) (fun _ b => b)
        (broadcastInDim S17x129 ![] bcast_S_S17x129 (constant (F := Ideal) S_ .f32 0x00000000#32))
        (startVec 0#32 0#32) W1)
      (startVec 16#32 0#32) b1)
    (startVec 16#32 128#32) (constant (F := Ideal) S_ .f32 0x3F800000#32) (ix2 f k) = _
  rw [pt_apply scatter_S17x129_S2_S__n_01_01_0_wf _ (startVec 16#32 128#32) _ 16 128
      (by rw [startVec_row]; decide) (by rw [startVec_col]; decide) (by omega) (by omega) f k,
    row_apply scatter_S17x129_S2_S128_0_0_01_0_wf _ (startVec 16#32 0#32) _ 16 0
      (by rw [startVec_row]; decide) (by rw [startVec_col]; decide) (by omega) (by omega) f k,
    blk_apply scatter_S17x129_S2_S16x128_01_n_01_0_wf _ (startVec 0#32 0#32) _ 0 0
      (by rw [startVec_row]; decide) (by rw [startVec_col]; decide) (by omega) (by omega) f k,
    broadcastInDim_scalar_apply, constant_apply, constant_apply, Ideal.ofBits_zero_f32, Ideal.ofBits_one_f32]
  split_ifs <;> first | rfl | omega

/-- THE SECOND LAYER'S AUGMENTED WEIGHTS AT AN ENTRY. -/
theorem w2aug_apply (W2 : FVec Ideal S128x64 .f32) (b2 : FVec Ideal S64 .f32) (k : Fin 129) (c : Fin 65) :
    w2aug W2 b2 (ix2 k c)
      = if hc : c.val < 64 then
          (if hk : k.val < 128 then W2 (ix2 (⟨k.val, hk⟩ : Fin 128) (⟨c.val, hc⟩ : Fin 64))
            else b2 (ix1 (⟨c.val, hc⟩ : Fin 64)))
        else (if k.val < 128 then (0 : EReal) else 1) := by
  have hk129 := k.isLt
  have hc65 := c.isLt
  unfold w2aug
  show Host.scatter (pt 129 65 scatter_S129x65_S2_S__n_01_01_0_wf) (fun _ b => b)
    (Host.scatter (row 129 65 64 scatter_S129x65_S2_S64_0_0_01_0_wf) (fun _ b => b)
      (Host.scatter (blk 129 65 128 64 scatter_S129x65_S2_S128x64_01_n_01_0_wf) (fun _ b => b)
        (broadcastInDim S129x65 ![] bcast_S_S129x65 (constant (F := Ideal) S_ .f32 0x00000000#32))
        (startVec 0#32 0#32) W2)
      (startVec 128#32 0#32) b2)
    (startVec 128#32 64#32) (constant (F := Ideal) S_ .f32 0x3F800000#32) (ix2 k c) = _
  rw [pt_apply scatter_S129x65_S2_S__n_01_01_0_wf _ (startVec 128#32 64#32) _ 128 64
      (by rw [startVec_row]; decide) (by rw [startVec_col]; decide) (by omega) (by omega) k c,
    row_apply scatter_S129x65_S2_S64_0_0_01_0_wf _ (startVec 128#32 0#32) _ 128 0
      (by rw [startVec_row]; decide) (by rw [startVec_col]; decide) (by omega) (by omega) k c,
    blk_apply scatter_S129x65_S2_S128x64_01_n_01_0_wf _ (startVec 0#32 0#32) _ 0 0
      (by rw [startVec_row]; decide) (by rw [startVec_col]; decide) (by omega) (by omega) k c,
    broadcastInDim_scalar_apply, constant_apply, constant_apply, Ideal.ofBits_zero_f32, Ideal.ofBits_one_f32]
  split_ifs <;> first | rfl | omega

end Cert.KernelIdeal.Aug

end
-- ==== Proof.LibMatmulTN.lean ====
/-
  A matrix product with the left factor transposed, read at an entry.

  At the exact instance a `tpu.matmul` into the zero accumulator is, at each output index, the sum over the dot's
  contraction index of the products of the operands at the indices the dimension numbers name. When BOTH operands are
  contracted on their axis 0 — a K × M matrix against a K × N matrix, one contracted axis, no batch axis: the product
  `aᵀ · w` — the operand indices at output (y, j) and contraction coordinate k are (k, y) and (k, j), and the
  contraction index is its one coordinate; so the entry is `Σₖ a[k, y] · w[k, j]` over `Fin K`. The four
  coordinate facts are hypotheses: for a concrete record each is one line (two by the record's single-axis lemmas,
  two by unfolding the index function at a decided membership).
-/
import Idealize.ShloMosaic.PureOps.Ideal.Laws
import Idealize.ShloMosaic.Lib.ValueIdx

noncomputable section

open scoped BigOperators

namespace Cert.PosEnc.Lib

open Idealize.ShloMosaic Idealize.ShloMosaic.ValueIdx

/-- Entry (y, j) of the product of a K × M matrix, transposed, with a K × N matrix, accumulated into zero, is
    `Σₖ a (k, y) · w (k, j)`, `k` over `Fin K`: the contraction index re-read as its one coordinate (`hr`, `hs`:
    one contracted axis of extent K), the operand indices by their coordinates (`hl0`, `hl1`, `hr0`, `hr1`).
    No law of real arithmetic is used, so it holds with infinite entries too. -/
theorem matmulTN_zero_ix2_apply {K M N : Nat} {φ₁ φ₂ : FTy}
    (d : DotDims ⟨2, ![K, M]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (q ⟨0, by omega⟩).val)
    (hl1 : ∀ (i : (⟨2, ![M, N]⟩ : Shape).Idx) (q : d.contr.Idx), (d.lhsIdx i q 1).val = (i 0).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![K, M]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 k y) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 k y := funext fun c => Fin.ext (by
    match c with
    | ⟨0, _⟩ => exact (hl0 _ _).trans hk
    | ⟨1, _⟩ => exact hl1 _ _)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.PosEnc.Lib

end
-- ==== Proof.Body.lean ====
/-
  The kernel body at one entry of its output block.

  At a grid point the body holds a block `x0` of seventeen feature planes over 8 particles × 4096 events, and the two
  augmented weight matrices `x1` (17 × 129) and `x2` (129 × 65). It flattens the particle and event axes into one lane
  axis of 32768 (lane `q · 4096 + l` is particle `q`, event `l`), multiplies every plane by the seventeenth (the mask
  plane), contracts the planes with `x1`, rectifies, contracts the 129 hidden planes with `x2`, and unflattens. So entry
  (c, q, l) of what it stores depends only on the seventeen values `x0 (f, q, l)` of that particle and event: it is the
  augmented arrangement `outAug` of Proof/MaskedMlp.lean on that particle, with the weights the entries of `x1`, `x2`.
-/
import proofs.«126524_g6803228197629_cont_sun_m_885_19_alg».proof.Proof.Gen.KernelIdeal.Skeleton
import proofs.«126524_g6803228197629_cont_sun_m_885_19_alg».proof.Proof.LibMatmulTN
import proofs.«126524_g6803228197629_cont_sun_m_885_19_alg».proof.Proof.MaskedMlp
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.MaskedMlp
open Cert.PosEnc.Lib

/-- The first contraction: 17 planes against the 17 × 129 weights, both contracted on their axis 0. -/
abbrev D1 : DotDims S17x129 S17x32768 S129x32768 := dot_S17x129_S17x32768_S129x32768_0_0_1_1_n_n
/-- The second contraction: 129 hidden planes against the 129 × 65 weights, both contracted on their axis 0. -/
abbrev D2 : DotDims S129x65 S129x32768 S65x32768 := dot_S129x65_S129x32768_S65x32768_0_0_1_1_n_n

theorem d1_l0 (i : S129x32768.Idx) (q : D1.contr.Idx) : (D1.lhsIdx i q 0).val = (q ⟨0, by decide⟩).val :=
  D1.lhsIdx_val_of_single rfl i q
theorem d1_l1 (i : S129x32768.Idx) (q : D1.contr.Idx) : (D1.lhsIdx i q 1).val = (i 0).val := by
  unfold DotDims.lhsIdx
  rw [dif_neg (show ¬(1 : Fin S17x129.rank) ∈ D1.lhsBatch by decide), dif_pos (show (1 : Fin S17x129.rank) ∈ D1.lhsNonContracting by decide)]
  rfl
theorem d1_r0 (i : S129x32768.Idx) (q : D1.contr.Idx) : (D1.rhsIdx i q 0).val = (q ⟨0, by decide⟩).val :=
  D1.rhsIdx_val_of_single rfl i q
theorem d1_r1 (i : S129x32768.Idx) (q : D1.contr.Idx) : (D1.rhsIdx i q 1).val = (i 1).val := by
  unfold DotDims.rhsIdx
  rw [dif_neg (show ¬(1 : Fin S17x32768.rank) ∈ D1.rhsBatch by decide), dif_pos (show (1 : Fin S17x32768.rank) ∈ D1.rhsNonContracting by decide)]
  rfl

theorem d2_l0 (i : S65x32768.Idx) (q : D2.contr.Idx) : (D2.lhsIdx i q 0).val = (q ⟨0, by decide⟩).val :=
  D2.lhsIdx_val_of_single rfl i q
theorem d2_l1 (i : S65x32768.Idx) (q : D2.contr.Idx) : (D2.lhsIdx i q 1).val = (i 0).val := by
  unfold DotDims.lhsIdx
  rw [dif_neg (show ¬(1 : Fin S129x65.rank) ∈ D2.lhsBatch by decide), dif_pos (show (1 : Fin S129x65.rank) ∈ D2.lhsNonContracting by decide)]
  rfl
theorem d2_r0 (i : S65x32768.Idx) (q : D2.contr.Idx) : (D2.rhsIdx i q 0).val = (q ⟨0, by decide⟩).val :=
  D2.rhsIdx_val_of_single rfl i q
theorem d2_r1 (i : S65x32768.Idx) (q : D2.contr.Idx) : (D2.rhsIdx i q 1).val = (i 1).val := by
  unfold DotDims.rhsIdx
  rw [dif_neg (show ¬(1 : Fin S129x32768.rank) ∈ D2.rhsBatch by decide), dif_pos (show (1 : Fin S129x32768.rank) ∈ D2.rhsNonContracting by decide)]
  rfl

/-- The lane of particle `q`, event `l` on the flattened axis. -/
abbrev lane (q : Fin 8) (l : Fin 4096) : Fin 32768 := ⟨q.val * 4096 + l.val, by have := q.isLt; have := l.isLt; omega⟩

/-- The flattened block at plane `f`, lane (q, l) is the block at (f, q, l). -/
theorem flat_apply (x0 : FVec Ideal S17x8x4096 .f32) (f : Fin 17) (q : Fin 8) (l : Fin 4096) :
    shapeCast S17x32768 (shapeCast S17x8x4096 x0 shapeCasts_S17x8x4096_S17x8x4096) shapeCasts_S17x8x4096_S17x32768 (ix2 f (lane q l))
      = x0 (ix3 f q l) := by
  rw [shapeCast_self]
  exact shapeCast_apply x0 shapeCasts_S17x8x4096_S17x32768 (ix2 f (lane q l)) (ix3 f q l)
    (by rw [Shape.rowMajor_val_three, Shape.rowMajor_val_two]
        show (f.val * 8 + q.val) * 4096 + l.val = f.val * 32768 + (q.val * 4096 + l.val)
        omega)

/-- The planes scaled by the mask plane: entry (f, n) is plane `f` times plane 16, both at lane `n`. -/
theorem scaled_apply (v2 : FVec Ideal S17x32768 .f32) (f : Fin 17) (n : Fin 32768) :
    mulf v2 (broadcastTo S17x32768 (extractStridedSlice S1x32768 ![16, 0] v2 slices_S17x32768_o16_0_S1x32768) broadcasts_S1x32768_S17x32768) (ix2 f n)
      = v2 (ix2 f n) * v2 (ix2 (16 : Fin 17) n) := by
  rw [mulf_apply]
  congr 1
  refine (broadcastTo_apply _ broadcasts_S1x32768_S17x32768 (ix2 f n) (ix2 (0 : Fin 1) n) (fun a => ?_)).trans ?_
  · match a with
    | ⟨0, _⟩ => rfl
    | ⟨1, _⟩ => rfl
  · exact extractStridedSlice_apply ![16, 0] v2 slices_S17x32768_o16_0_S1x32768 (ix2 (0 : Fin 1) n) (ix2 (16 : Fin 17) n) (fun a => by
      match a with
      | ⟨0, _⟩ => rfl
      | ⟨1, _⟩ => show n.val = 0 + n.val; omega)

/-- THE BODY AT AN ENTRY: what the body stores at (c, q, l) is the augmented arrangement on the particle
    `f ↦ x0 (f, q, l)`, the weights the entries of the two loaded matrices. -/
theorem pay_apply (x0 : FVec Ideal S17x8x4096 .f32) (x1 : FVec Ideal S17x129 .f32) (x2 : FVec Ideal S129x65 .f32)
    (c : Fin 65) (q : Fin 8) (l : Fin 4096) :
    k0_pay1 (F := Ideal) x0 x1 x2 (ix3 c q l)
      = outAug (fun f k => x1 (ix2 f k)) (fun k c => x2 (ix2 k c)) (fun f => x0 (ix3 f q l)) c := by
  unfold k0_pay1
  refine (shapeCast_apply _ shapeCasts_S65x32768_S65x8x4096 (ix3 c q l) (ix2 c (lane q l))
    (by rw [Shape.rowMajor_val_three, Shape.rowMajor_val_two]
        show c.val * 32768 + (q.val * 4096 + l.val) = (c.val * 8 + q.val) * 4096 + l.val
        omega)).trans ?_
  refine (matmulTN_zero_ix2_apply D2 rfl rfl d2_l0 d2_l1 d2_r0 d2_r1 none _ _ c (lane q l)).trans ?_
  unfold outAug
  refine Finset.sum_congr rfl fun k _ => ?_
  rw [shapeCast_self]
  refine congrArg (x2 (ix2 k c) * ·) ?_
  refine (maximumf_apply _ _ _).trans ?_
  unfold hidAug
  refine congr (congrArg max ?_) ?_
  · refine (matmulTN_zero_ix2_apply D1 rfl rfl d1_l0 d1_l1 d1_r0 d1_r1 none _ _ k (lane q l)).trans ?_
    refine Finset.sum_congr rfl fun f _ => ?_
    rw [shapeCast_self]
    refine congrArg (x1 (ix2 f k) * ·) ?_
    refine (scaled_apply _ f (lane q l)).trans ?_
    rw [flat_apply, flat_apply]
  · exact Ideal.ofBits_zero_f32

end Cert.KernelIdeal.Body

end
-- ==== Proof.Blocks.lean ====
/-
  From the grid's blocks to the whole output array.

  The pipeline runs the body at 25 grid points. Point `t` stages the block of particles `8t … 8t + 7` (all seventeen
  feature planes, all 4096 events) of the transposed events, and the two augmented weight matrices whole, and writes
  back the block of the same particles (all 65 output planes, all events) of the output array. By Proof/Body.lean the
  entry (c, q, l) of that block depends only on particle `8t + q`, event `l`; so every block is the restriction of ONE
  function `wholeOut` of the staged arrays — the augmented arrangement applied particle by particle — and since the 25
  blocks tile the 200 particles, the output array after the run is `wholeOut`.
-/
import proofs.«126524_g6803228197629_cont_sun_m_885_19_alg».proof.Proof.Gen.KernelIdeal.Frame
import proofs.«126524_g6803228197629_cont_sun_m_885_19_alg».proof.Proof.Body
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.MaskedMlp

variable (m : (ℓ : Loc nD τ sig) → Buf (Elt Ideal) ℓ)

/-- The output array as ONE function of the staged arrays: at (c, p, e) the augmented arrangement's output `c` on the
    particle `f ↦ evT (f, p, e)`, the weights the entries of `A` and `B`. -/
def wholeOut (evT : S17x200x4096.Idx → Elt Ideal .f32) (A : S17x129.Idx → Elt Ideal .f32) (B : S129x65.Idx → Elt Ideal .f32) :
    S65x200x4096.Idx → Elt Ideal .f32 := fun i =>
  outAug (fun f k => A (ix2 f k)) (fun k c => B (ix2 k c))
    (fun f => evT (ix3 f (⟨(i 1).val, (i 1).isLt⟩ : Fin 200) (⟨(i 2).val, (i 2).isLt⟩ : Fin 4096))) (⟨(i 0).val, (i 0).isLt⟩ : Fin 65)

theorem hz3 : (![0, 0, 0] : Fin 3 → Nat) = fun _ => 0 := funext fun a => by fin_cases a <;> rfl
theorem hz2 : (![0, 0] : Fin 2 → Nat) = fun _ => 0 := funext fun a => by fin_cases a <;> rfl

/-- One point's block is the restriction of `wholeOut`: for block contents `x0`, `x1`, `x2` that are the staged arrays
    read where the block lies (`h0`: the particle and event of block entry `j` are those of array index `i`; the weights
    whole), the body's entry `j` is `wholeOut` at `i`. -/
theorem point_eq (x0 : FVec Ideal S17x8x4096 .f32) (x1 : FVec Ideal S17x129 .f32) (x2 : FVec Ideal S129x65 .f32)
    (evT : S17x200x4096.Idx → Elt Ideal .f32) (A : S17x129.Idx → Elt Ideal .f32) (B : S129x65.Idx → Elt Ideal .f32)
    (cc : Fin 65) (q : Fin 8) (l : Fin 4096) (i : S65x200x4096.Idx)
    (h0 : ∀ f : Fin 17, x0 (ix3 f q l) = evT (ix3 f (⟨(i 1).val, (i 1).isLt⟩ : Fin 200) (⟨(i 2).val, (i 2).isLt⟩ : Fin 4096)))
    (h1 : x1 = A) (h2 : x2 = B) (hc : cc.val = (i 0).val) :
    k0_pay1 (F := Ideal) x0 x1 x2 (ix3 cc q l) = wholeOut evT A B i := by
  rw [pay_apply]
  unfold wholeOut
  subst h1 h2
  have hcc : cc = (⟨(i 0).val, (i 0).isLt⟩ : Fin 65) := Fin.ext hc
  rw [← hcc]
  congr 1
  funext f
  exact h0 f

/-- The printed index maps, decided over the 25 points: the events' and the output's windows sit at block `t` of the
    particle axis, the weights' at their one block. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 ∧ t.val < 25 :=
  (by decide +kernel : ∀ t : Fin grid0.N, _)

/-- The particle of block entry `q` at point `t`. -/
abbrev part (t : Fin cfg0.N) (q : Fin 8) : Fin 200 := ⟨t.val * 8 + q.val, by have := (idx_facts t).2.2.2.2.2.2.2.2.2.2; have := q.isLt; omega⟩

/-- The events' block at point `t`, read at (f, q, l), is the staged array at particle `8t + q`. -/
theorem iblk0_apply (c : Dev nD) (t : Fin cfg0.N) (f : Fin 17) (q : Fin 8) (l : Fin 4096) :
    iblk m c 0 t (ix3 f q l) = V m c main_call0_v0 (ix3 f (part t q) l) := by
  obtain ⟨e00, e01, e02, -⟩ := idx_facts t
  show V m c main_call0_v0 (((cfg0.win 0).blk t).view.emb (ix3 f q l)) = _
  refine congrArg (V m c main_call0_v0) (funext fun a => Fin.ext ?_)
  match a with
  | ⟨0, _⟩ => show win0_0.index t (0 : Fin 3) * 17 + 1 * f.val = f.val; omega
  | ⟨1, _⟩ => show win0_0.index t (1 : Fin 3) * 8 + 1 * q.val = t.val * 8 + q.val; omega
  | ⟨2, _⟩ => show win0_0.index t (2 : Fin 3) * 4096 + 1 * l.val = l.val; omega

/-- The first weights' block is their whole array at every point. -/
theorem iblk1_eq (c : Dev nD) (t : Fin cfg0.N) : iblk m c 1 t = V m c main_call0_v13 := by
  obtain ⟨-, -, -, e10, e11, -⟩ := idx_facts t
  funext y
  show V m c main_call0_v13 (((cfg0.win 1).blk t).view.emb y) = V m c main_call0_v13 y
  refine congrArg (V m c main_call0_v13) (funext fun a => Fin.ext ?_)
  match a with
  | ⟨0, _⟩ => show win0_1.index t (0 : Fin 2) * 17 + 1 * (y 0).val = (y 0).val; omega
  | ⟨1, _⟩ => show win0_1.index t (1 : Fin 2) * 129 + 1 * (y 1).val = (y 1).val; omega

/-- The second weights' block is their whole array at every point. -/
theorem iblk2_eq (c : Dev nD) (t : Fin cfg0.N) : iblk m c 2 t = V m c main_call0_v26 := by
  obtain ⟨-, -, -, -, -, e20, e21, -⟩ := idx_facts t
  funext y
  show V m c main_call0_v26 (((cfg0.win 2).blk t).view.emb y) = V m c main_call0_v26 y
  refine congrArg (V m c main_call0_v26) (funext fun a => Fin.ext ?_)
  match a with
  | ⟨0, _⟩ => show win0_2.index t (0 : Fin 2) * 129 + 1 * (y 0).val = (y 0).val; omega
  | ⟨1, _⟩ => show win0_2.index t (1 : Fin 2) * 65 + 1 * (y 1).val = (y 1).val; omega

/-- Block contents `P` that agree entry by entry with a whole-array function `G` at particle `8t + q` are what reading
    `G` through point `t`'s output block gives. -/
theorem cut_eq_read (t : Fin cfg0.N) (P : FVec Ideal S65x8x4096 .f32) (G : S65x200x4096.Idx → Elt Ideal .f32)
    (h : ∀ (cc : Fin 65) (q : Fin 8) (l : Fin 4096), P (ix3 cc q l) = G (ix3 cc (part t q) l)) :
    (cfg0.win 3).cut (grid0.coords t) P = ((cfg0.win 3).blk t).view.read (Elt Ideal) G := by
  obtain ⟨-, -, -, -, -, -, -, e30, e31, e32, -⟩ := idx_facts t
  funext j
  obtain ⟨cc, q, l, rfl⟩ : ∃ (cc : Fin 65) (q : Fin 8) (l : Fin 4096), j = ix3 cc q l := ⟨j 0, j 1, j 2, eq_ix3 j⟩
  show P (ix3 cc q l) = G (((cfg0.win 3).blk t).view.emb (ix3 cc q l))
  rw [h]
  refine congrArg G (funext fun a => Fin.ext ?_)
  match a with
  | ⟨0, _⟩ => show cc.val = win0_3.index t (0 : Fin 3) * 65 + 1 * cc.val; omega
  | ⟨1, _⟩ => show t.val * 8 + q.val = win0_3.index t (1 : Fin 3) * 8 + 1 * q.val; omega
  | ⟨2, _⟩ => show l.val = win0_3.index t (2 : Fin 3) * 4096 + 1 * l.val; omega

/-- WHAT POINT `t` WRITES BACK is block `t` of `wholeOut` of the staged arrays as the region finds them. -/
theorem flushed_eq (c : Dev nD) (t : Fin cfg0.N) :
    (dats m 0 c).flushed 3 t = ((cfg0.win 3).blk t).view.read (Elt Ideal)
      (wholeOut (V m c main_call0_v0) (V m c main_call0_v13) (V m c main_call0_v26)) := by
  show (cfg0.win 3).cut (grid0.coords t) ((dats m 0 c).after 3 t) = _
  rw [after0_3]
  unfold out0_3
  rw [View.canon_unit_zero hz3]
  simp only [View.ld_unit_zero (S := S17x8x4096) hz3, View.ld_unit_zero (S := S17x129) hz2, View.ld_unit_zero (S := S129x65) hz2]
  exact cut_eq_read t _ _ fun cc q l =>
    point_eq (iblk m c 0 t) (iblk m c 1 t) (iblk m c 2 t) (V m c main_call0_v0) (V m c main_call0_v13) (V m c main_call0_v26)
      cc q l (ix3 cc (part t q) l) (fun f => iblk0_apply m c t f q l) (iblk1_eq m c t) (iblk2_eq m c t) rfl

end Cert.KernelIdeal.Blocks

end
-- ==== Proof.Cover.lean ====
/-
  The output's blocks tile its array.

  The output array has 65 planes × 200 particles × 4096 events; point `t` of the 25 writes back the block of all planes,
  particles `8t … 8t + 7`, all events. So the entry of particle `p` lies in the block of point `p / 8`, and every entry is
  covered.
-/
import proofs.«126524_g6803228197629_cont_sun_m_885_19_alg».proof.Proof.Gen.KernelIdeal.Frame
import Idealize.ShloMosaic.Lib.Pipeline.Value

set_option maxRecDepth 16384

noncomputable section

namespace Cert.KernelIdeal.Cover

open Idealize.ShloMosaic Idealize.ShloMosaic.TcCoe Idealize.SL.Sem
open Idealize.ShloMosaic.Pipeline (Dat Cfg Window)
open Cert.KernelIdeal Cert.KernelIdeal.Gen

/-- The output window's index map, decided over the 25 points: block `t` of the particle axis, the one block of the others. -/
theorem out_idx : ∀ t : Fin cfg0.N,
    win0_3.index t (0 : Fin 3) = 0 ∧ win0_3.index t (1 : Fin 3) = t.val ∧ win0_3.index t (2 : Fin 3) = 0 :=
  (by decide +kernel : ∀ t : Fin grid0.N, _)

/-- Every block of particles is some point's. -/
theorem idx_onto : ∀ b : Fin 25, ∃ t : Fin cfg0.N, t.val = b.val :=
  (by decide +kernel : ∀ b : Fin 25, ∃ t : Fin grid0.N, t.val = b.val)

/-- An index of the output array is in point `t`'s block iff each coordinate is in the block's range on its axis. -/
theorem mem_blk (t : Fin cfg0.N) (i : S65x200x4096.Idx) :
    i ∈ ((cfg0.win 3).blk t).view.set ↔ ∀ a : Fin 3, win0_3.index t a * S65x8x4096.size a ≤ (i a).val
      ∧ (i a).val < win0_3.index t a * S65x8x4096.size a + S65x8x4096.size a := by
  show i ∈ ((View.whole main_call0_v27).slice (win0_3.rect t)).set ↔ _
  rw [View.set_slice_whole, Rect.mem_set_unit]
  exact Iff.rfl

/-- The blocks tile the array: particle `p` lies in the block of point `p / 8`. -/
theorem cover (i : S65x200x4096.Idx) :
    ∃ t : Fin cfg0.N, (cfg0.win 3).flush t = true ∧ i ∈ ((cfg0.win 3).blk t).view.set := by
  have hi0 : (i 0).val < 65 := (i 0).isLt
  have hi1 : (i 1).val < 200 := (i 1).isLt
  have hi2 : (i 2).val < 4096 := (i 2).isLt
  obtain ⟨t, htb⟩ := idx_onto ⟨(i 1).val / 8, by omega⟩
  have htv : t.val = (i 1).val / 8 := htb
  obtain ⟨e30, e31, e32⟩ := out_idx t
  refine ⟨t, flush0_3 t, ?_⟩
  rw [mem_blk]
  intro a
  match a with
  | ⟨0, _⟩ => show win0_3.index t (0 : Fin 3) * 65 ≤ (i 0).val ∧ (i 0).val < win0_3.index t (0 : Fin 3) * 65 + 65; omega
  | ⟨1, _⟩ => show win0_3.index t (1 : Fin 3) * 8 ≤ (i 1).val ∧ (i 1).val < win0_3.index t (1 : Fin 3) * 8 + 8; omega
  | ⟨2, _⟩ => show win0_3.index t (2 : Fin 3) * 4096 ≤ (i 2).val ∧ (i 2).val < win0_3.index t (2 : Fin 3) * 4096 + 4096; omega

end Cert.KernelIdeal.Cover

end
-- ==== Proof.KernelRun.lean ====
/-
  The idealized kernel's run, read as one function of its five arguments.

  Around its one pipelined region the program transposes the events to (feature, particle, event), builds the two
  augmented weight matrices out of zeros by overwriting a block, a row and a corner (Proof/AugWeights.lean reads them at
  an entry), runs the region — whose output array is `wholeOut` of those three staged arrays (Proof/Blocks.lean,
  Proof/Cover.lean) — and transposes the output back to (event, particle, output). So the result at (e, p, c) is the
  augmented arrangement's output `c` on the particle `f ↦ events (e, p, f)` with the augmented weights: `kernelOut_apply`.
-/
import proofs.«126524_g6803228197629_cont_sun_m_885_19_alg».proof.Proof.Blocks
import proofs.«126524_g6803228197629_cont_sun_m_885_19_alg».proof.Proof.Cover
import proofs.«126524_g6803228197629_cont_sun_m_885_19_alg».proof.Proof.AugWeights
import Idealize.ShloMosaic.Lib.StableHlo.Run
import Idealize.ShloMosaic.Lib.Pipeline.Value

set_option maxRecDepth 16384

noncomputable section

namespace Cert.KernelIdeal.Run

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.Blocks Cert.KernelIdeal.Aug Cert.MaskedMlp

variable (m : (ℓ : Loc nD τ sig) → Buf (Elt Ideal) ℓ) (ρ : Dev nD → PrngReg)

/-- The result array as a function of the argument arrays: transpose, the region's whole-array function on the
    transposed events and the augmented weights, transpose back. -/
def kernelOut (ev : S4096x200x17.Idx → Elt Ideal .f32) (W1 : FVec Ideal S16x128 .f32) (b1 : FVec Ideal S128 .f32)
    (W2 : FVec Ideal S128x64 .f32) (b2 : FVec Ideal S64 .f32) : S4096x200x65.Idx → Elt Ideal .f32 :=
  transpose S4096x200x65 [2, 1, 0]
    (wholeOut (transpose S17x200x4096 [2, 1, 0] ev transposes_S4096x200x17_S17x200x4096_2_1_0) (w1aug W1 b1) (w2aug W2 b2))
    transposes_S65x200x4096_S4096x200x65_2_1_0

/-- The transposed events at (f, p, e) are the events at (e, p, f). -/
theorem evT_apply (ev : S4096x200x17.Idx → Elt Ideal .f32) (f : Fin 17) (p : Fin 200) (e : Fin 4096) :
    transpose S17x200x4096 [2, 1, 0] ev transposes_S4096x200x17_S17x200x4096_2_1_0 (ix3 f p e) = ev (ix3 e p f) :=
  transpose_apply [2, 1, 0] ev transposes_S4096x200x17_S17x200x4096_2_1_0 (ix3 f p e) (ix3 e p f) (fun b => by
    match b with
    | ⟨0, _⟩ => rfl
    | ⟨1, _⟩ => rfl
    | ⟨2, _⟩ => rfl)

/-- The output transposed back at (e, p, c) is the region's output at (c, p, e). -/
theorem outT_apply (X : S65x200x4096.Idx → Elt Ideal .f32) (e : Fin 4096) (p : Fin 200) (c : Fin 65) :
    transpose S4096x200x65 [2, 1, 0] X transposes_S65x200x4096_S4096x200x65_2_1_0 (ix3 e p c) = X (ix3 c p e) :=
  transpose_apply [2, 1, 0] X transposes_S65x200x4096_S4096x200x65_2_1_0 (ix3 e p c) (ix3 c p e) (fun b => by
    match b with
    | ⟨0, _⟩ => rfl
    | ⟨1, _⟩ => rfl
    | ⟨2, _⟩ => rfl)

/-- THE RESULT AT AN ENTRY: the augmented arrangement on particle (e, p), with the augmented weights. -/
theorem kernelOut_apply (ev : S4096x200x17.Idx → Elt Ideal .f32) (W1 : FVec Ideal S16x128 .f32) (b1 : FVec Ideal S128 .f32)
    (W2 : FVec Ideal S128x64 .f32) (b2 : FVec Ideal S64 .f32) (e : Fin 4096) (p : Fin 200) (c : Fin 65) :
    kernelOut ev W1 b1 W2 b2 (ix3 e p c)
      = outAug (fun f k => w1aug W1 b1 (ix2 f k)) (fun k c => w2aug W2 b2 (ix2 k c)) (fun f => ev (ix3 e p f)) c := by
  unfold kernelOut
  rw [outT_apply]
  unfold wholeOut
  congr 1
  funext f
  exact evT_apply ev f p e

attribute [local irreducible] Host.scatter

/-- The staged events are the transposed argument. -/
theorem V_evT (c : Dev nD) : (V m c main_call0_v0 : S17x200x4096.Idx → Elt Ideal .f32)
    = transpose S17x200x4096 [2, 1, 0] (m ((c : Thread nD τ).loc main_arg0)) transposes_S4096x200x17_S17x200x4096_2_1_0 := by
  show StableHlo.after hostOps0 (fun b => m (c, b)) (Proc.devRef .tc main_call0_v0) = _
  after_results
  simp only [cast_eq]

/-- The first staged weights are the augmented first layer. -/
theorem V_w1 (c : Dev nD) : (V m c main_call0_v13 : S17x129.Idx → Elt Ideal .f32)
    = w1aug (m ((c : Thread nD τ).loc main_arg1)) (m ((c : Thread nD τ).loc main_arg2)) := by
  show StableHlo.after hostOps0 (fun b => m (c, b)) (Proc.devRef .tc main_call0_v13) = _
  after_results
  simp only [cast_eq]
  unfold w1aug
  rfl

/-- A line of host operations cut in two: run the first part, then the second from what it leaves. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op ops ih => exact ih _

/-- Contents carried to a buffer's declared type and back are the contents. -/
theorem ofBuf_toBuf {T : BufTy} (x : StableHlo.TRef sig T) (v : T.Contents (Elt Ideal)) : x.ofBuf (x.toBuf v) = v := by
  obtain ⟨r, h, h2, h3⟩ := x
  subst h
  rfl

/-- At the second layer's weight argument, whose declared type is the matrix type, the transport is the identity. -/
theorem ofBuf_arg3 (h1 : main_arg3.ty = ⟨S128x64, .f32⟩) (h2 : main_arg3.space ≠ .host) (h3 : main_arg3.isScoped = false)
    (X : (⟨S128x64, .f32⟩ : BufTy).Contents (Elt Ideal)) :
    (StableHlo.TRef.of main_arg3 h1 h2 h3 : StableHlo.TRef sig ⟨S128x64, .f32⟩).ofBuf X = X := rfl
/-- So it is at the second layer's bias argument, -/
theorem ofBuf_arg4 (h1 : main_arg4.ty = ⟨S64, .f32⟩) (h2 : main_arg4.space ≠ .host) (h3 : main_arg4.isScoped = false)
    (X : (⟨S64, .f32⟩ : BufTy).Contents (Elt Ideal)) :
    (StableHlo.TRef.of main_arg4 h1 h2 h3 : StableHlo.TRef sig ⟨S64, .f32⟩).ofBuf X = X := rfl
/-- and at the second augmented matrix's buffer. -/
theorem toBuf_v26 (h1 : main_call0_v26.ty = ⟨S129x65, .f32⟩) (h2 : main_call0_v26.space ≠ .host) (h3 : main_call0_v26.isScoped = false)
    (X : (⟨S129x65, .f32⟩ : BufTy).Contents (Elt Ideal)) :
    (StableHlo.TRef.of main_call0_v26 h1 h2 h3 : StableHlo.TRef sig ⟨S129x65, .f32⟩).toBuf X = X := rfl

/-- The first 22 host operations (the transpose and the first layer's weights) write neither second-layer argument. -/
theorem head_keeps (c : Dev nD) (b : Ref sig .tc) (hb : b = main_arg3 ∨ b = main_arg4) :
    StableHlo.after (List.take 22 (hostOps0 (F := Ideal))) (fun b => m (c, b)) (Proc.devRef .tc b) = m (c, Proc.devRef .tc b) :=
  StableHlo.after_of_forall_not_mem (b := Proc.devRef .tc b) _ _ (List.forall_iff_forall_mem.mp (by
    simp only [hostOps0, List.take_succ_cons, List.take_zero, List.Forall, StableHlo.nullary_writes, StableHlo.unary_writes,
      StableHlo.binary_writes, StableHlo.ternary_writes, Finset.mem_singleton]
    rcases hb with rfl | rfl
    all_goals (repeat' apply And.intro)
    all_goals exact StableHlo.devRef_ne_of_ne (by decide)))

set_option maxHeartbeats 400000 in
/-- The second staged weights are the augmented second layer. -/
theorem V_w2 (c : Dev nD) : (V m c main_call0_v26 : S129x65.Idx → Elt Ideal .f32)
    = w2aug (m ((c : Thread nD τ).loc main_arg3)) (m ((c : Thread nD τ).loc main_arg4)) := by
  show StableHlo.after hostOps0 (fun b => m (c, b)) (Proc.devRef .tc main_call0_v26) = _
  have hsplit : (hostOps0 (F := Ideal)) = List.take 22 hostOps0 ++ List.drop 22 hostOps0 := (List.take_append_drop 22 _).symm
  rw [hsplit, after_append]
  have h3 := head_keeps m c main_arg3 (Or.inl rfl)
  have h4 := head_keeps m c main_arg4 (Or.inr rfl)
  generalize StableHlo.after (List.take 22 (hostOps0 (F := Ideal))) (fun b => m (c, b)) = VA at h3 h4 ⊢
  clear hsplit
  simp only [hostOps0, List.drop_succ_cons, List.drop_zero]
  after_results
  rw [h3, h4]
  repeat rw [ofBuf_toBuf]
  rw [ofBuf_arg3, ofBuf_arg4, toBuf_v26]
  rfl

/-- THE OUTPUT ARRAY after the run is `wholeOut` of the staged arrays as the region finds them. -/
theorem final (c : Dev nD) : (dats m 0 c).arrAt 3 cfg0.N
    = wholeOut (V m c main_call0_v0) (V m c main_call0_v13) (V m c main_call0_v26) :=
  (dats m 0 c).arrAt_eq_of_cover 3 (wholeOut (V m c main_call0_v0) (V m c main_call0_v13) (V m c main_call0_v26))
    (fun t _ => flushed_eq m c t) Cert.KernelIdeal.Cover.cover

/-- What the line after the region leaves in the result buffer: the region's output array, transposed back. -/
theorem tail_eq (c : Dev nD) :
    Pipeline.afterTail₀ cfgs (dats m) 0 (V0 m) [hostOps1] c main_v0
      = kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v0) = _
  after_results
  simp only [cast_eq]
  refine (congrArg (fun X => transpose S4096x200x65 [2, 1, 0] X transposes_S65x200x4096_S4096x200x65_2_1_0)
    (Pipeline.withArrays_arr spec0 launch0.win.arr_inj c (V0 m c) (fun w => (dats m 0 c).arrAt w cfg0.N) 3)).trans ?_
  show transpose S4096x200x65 [2, 1, 0] ((dats m 0 c).arrAt 3 cfg0.N) transposes_S65x200x4096_S4096x200x65_2_1_0 = _
  rw [final m c, V_evT m c, V_w1 m c, V_w2 m c]
  rfl

/-- THE RUN, READ: every weakly fair execution terminates with the result buffer at `kernelOut` of the arguments, and
    the arguments unchanged. -/
theorem run : θ_run defs (onTc (τ := τ) (main (F := Ideal))) ⟨m, fun _ => 0, ρ⟩ fun r => ∀ c : Dev nD,
      r.2.mem ((c.tc : Thread nD τ).loc main_v0)
        = kernelOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RefValue.lean ====
/-
  The reference's result read at one entry.

  The reference flattens the events [4096, 200, 17] to 819200 rows of 17 (row r = e · 200 + p), compares column 16
  of each row with the f32 word of 1.0, applies the two-layer perceptron to the first sixteen columns
  (a contraction over 16 with W1, the bias b1, a maximum with zero, a contraction over 128 with W2, the bias b2),
  joins a sixty-fifth column of ones, selects row by row between that and zero on the comparison bit, and folds
  the 819200 rows back to [4096, 200, 65].

  Each operation is read at an index by its own lemma of the imported module; what is proved here is what the
  composed index maps are at the coordinates (e, p, c): the flat position ((e · 200 + p) · 65 + c) splits by 65
  into row e · 200 + p and column c, and the flat position ((e · 200 + p) · 17 + f) splits by 3400, 17 and 200
  into (e, p, f) (division and remainder by literals). The joined array is read on either side of column 64.
  At the ideal instance the additions, the maximum and the comparison are those of the extended reals, and the
  two f32 words are 0 and 1. The result at (e, p, c) is then output c of the plain arrangement of the masked
  perceptron on the particle `f ↦ events[e, p, f]`.
-/
import proofs.«126524_g6803228197629_cont_sun_m_885_19_alg».proof.Proof.Gen.ReferenceIdeal.Read
import proofs.«126524_g6803228197629_cont_sun_m_885_19_alg».proof.Proof.MaskedMlp
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.MaskedMlp

/-- Row `e · 200 + p` of the arrays flattened to 819200 rows. -/
abbrev row (e : Fin 4096) (p : Fin 200) : Fin 819200 :=
  ⟨e.val * 200 + p.val, by have he := e.isLt; have hp := p.isLt; omega⟩

variable (ev : FVec Ideal S4096x200x17 .f32) (W1 : FVec Ideal S16x128 .f32) (b1 : FVec Ideal S128 .f32)
  (W2 : FVec Ideal S128x64 .f32) (b2 : FVec Ideal S64 .f32) (e : Fin 4096) (p : Fin 200)

/-- Entry (e, p, c) of the result is entry (e · 200 + p, c) of the flat one. -/
theorem idx19 (c : Fin 65) : idx_main_v19 (ix3 e p c) = ix2 (row e p) c := by
  funext a
  apply Fin.ext
  have he := e.isLt; have hp := p.isLt; have hc := c.isLt
  match a with
  | ⟨0, _⟩ => show ((e.val * 200 + p.val) * 65 + c.val) / 65 = e.val * 200 + p.val; omega
  | ⟨1, _⟩ => show ((e.val * 200 + p.val) * 65 + c.val) % 65 = c.val; omega

/-- Entry (e · 200 + p, f) of the flattened events is entry (e, p, f) of the events. -/
theorem idx0 (f : Fin 17) : idx_main_v0 (ix2 (row e p) f) = ix3 e p f := by
  funext a
  apply Fin.ext
  have he := e.isLt; have hp := p.isLt; have hf := f.isLt
  match a with
  | ⟨0, _⟩ => show ((e.val * 200 + p.val) * 17 + f.val) / 3400 = e.val; omega
  | ⟨1, _⟩ => show ((e.val * 200 + p.val) * 17 + f.val) / 17 % 200 = p.val; omega
  | ⟨2, _⟩ => show ((e.val * 200 + p.val) * 17 + f.val) % 17 = f.val; omega

/-- The flattened events at row e · 200 + p. -/
theorem v0_apply (f : Fin 17) : val_main_v0 (F := Ideal) ev (ix2 (row e p) f) = ev (ix3 e p f) := by
  rw [val_main_v0_apply, idx0]

/-- The sixteen features of row e · 200 + p. -/
theorem v5_apply (f : Fin 16) : val_main_v5 (F := Ideal) ev (ix2 (row e p) f) = ev (ix3 e p f.castSucc) := by
  rw [val_main_v5_apply]
  have hi : idx_main_v5 (ix2 (row e p) f) = ix2 (row e p) f.castSucc := by
    funext a
    match a with
    | ⟨0, _⟩ => rfl
    | ⟨1, _⟩ => rfl
  rw [hi, v0_apply]

/-- The first contraction at (e · 200 + p, k). -/
theorem v6_apply (k : Fin 128) :
    val_main_v6 (F := Ideal) ev W1 (ix2 (row e p) k) = ∑ f : Fin 16, ev (ix3 e p f.castSucc) * W1 (ix2 f k) := by
  rw [val_main_v6_apply]
  refine Finset.sum_congr rfl fun f _ => ?_
  have hl : lidx_main_v6 (ix2 (row e p) k) f = ix2 (row e p) f := by
    funext a
    match a with
    | ⟨0, _⟩ => rfl
    | ⟨1, _⟩ => rfl
  have hr : ridx_main_v6 (ix2 (row e p) k) f = ix2 f k := by
    funext a
    match a with
    | ⟨0, _⟩ => rfl
    | ⟨1, _⟩ => rfl
  rw [hl, hr, v5_apply]

/-- The first bias broadcast to every row. -/
theorem v8_apply (k : Fin 128) : val_main_v8 (F := Ideal) b1 (ix2 (row e p) k) = b1 (ix1 k) := by
  rw [val_main_v8_apply, val_main_v7_apply]
  congr 1
  funext a
  match a with
  | ⟨0, _⟩ => rfl

/-- The hidden layer at (e · 200 + p, k) is the plain perceptron's hidden unit k on particle (e, p). -/
theorem v10_apply (k : Fin 128) :
    val_main_v10 (F := Ideal) ev W1 b1 (ix2 (row e p) k)
      = hidPlain (fun f k => W1 (ix2 f k)) (fun k => b1 (ix1 k)) (fun f => ev (ix3 e p f)) k := by
  rw [val_main_v10_apply, val_main_v9_apply, v6_apply, v8_apply, val_main_call0_v0_apply, val_main_call0_cst_apply,
    Ideal.maximumf_def, Ideal.addf_def, Ideal.ofBits_def, Ideal.ofBits_zero_f32]
  rfl

/-- The second contraction at (e · 200 + p, c). -/
theorem v11_apply (c : Fin 64) :
    val_main_v11 (F := Ideal) ev W1 b1 W2 (ix2 (row e p) c)
      = ∑ k : Fin 128, hidPlain (fun f k => W1 (ix2 f k)) (fun k => b1 (ix1 k)) (fun f => ev (ix3 e p f)) k * W2 (ix2 k c) := by
  rw [val_main_v11_apply]
  refine Finset.sum_congr rfl fun k _ => ?_
  have hl : lidx_main_v11 (ix2 (row e p) c) k = ix2 (row e p) k := by
    funext a
    match a with
    | ⟨0, _⟩ => rfl
    | ⟨1, _⟩ => rfl
  have hr : ridx_main_v11 (ix2 (row e p) c) k = ix2 k c := by
    funext a
    match a with
    | ⟨0, _⟩ => rfl
    | ⟨1, _⟩ => rfl
  rw [hl, hr, v10_apply]

/-- The second bias broadcast to every row. -/
theorem v13_apply (c : Fin 64) : val_main_v13 (F := Ideal) b2 (ix2 (row e p) c) = b2 (ix1 c) := by
  rw [val_main_v13_apply, val_main_v12_apply]
  congr 1
  funext a
  match a with
  | ⟨0, _⟩ => rfl

/-- The perceptron's output c of particle (e, p). -/
theorem v14_apply (c : Fin 64) :
    val_main_v14 (F := Ideal) ev W1 b1 W2 b2 (ix2 (row e p) c)
      = ∑ k : Fin 128, hidPlain (fun f k => W1 (ix2 f k)) (fun k => b1 (ix1 k)) (fun f => ev (ix3 e p f)) k * W2 (ix2 k c)
        + b2 (ix1 c) := by
  rw [val_main_v14_apply, v11_apply, v13_apply, Ideal.addf_def]

/-- The appended column of ones. -/
theorem v15_apply (r : Fin 819200) : val_main_v15 (F := Ideal) (ix2 r (0 : Fin 1)) = 1 := by
  rw [val_main_v15_apply, val_main_cst_0_apply, Ideal.ofBits_def, Ideal.ofBits_one_f32]

/-- Below column 64 the joined array is the perceptron's output. -/
theorem v16_apply_lt (c : Fin 65) (h : c.val < 64) :
    val_main_v16 (F := Ideal) ev W1 b1 W2 b2 (ix2 (row e p) c)
      = val_main_v14 (F := Ideal) ev W1 b1 W2 b2 (ix2 (row e p) (⟨c.val, h⟩ : Fin 64)) := by
  unfold val_main_v16
  generalize val_main_v14 (F := Ideal) ev W1 b1 W2 b2 = y1
  generalize val_main_v15 (F := Ideal) = y2
  refine concatenate_pair_apply_left (1 : Fin S819200x65.rank) y1 y2 concatenates_S819200x64_S819200x1_S819200x65_d1
    (ix2 (row e p) c) rfl (ix2 (row e p) (⟨c.val, h⟩ : Fin 64)) (fun b => ?_)
  match b with
  | ⟨0, _⟩ => rfl
  | ⟨1, _⟩ => rfl

/-- Column 64 of the joined array is the appended one. -/
theorem v16_apply_last (c : Fin 65) (h : ¬ c.val < 64) :
    val_main_v16 (F := Ideal) ev W1 b1 W2 b2 (ix2 (row e p) c) = 1 := by
  rw [← v15_apply (row e p)]
  unfold val_main_v16
  generalize val_main_v14 (F := Ideal) ev W1 b1 W2 b2 = y1
  generalize val_main_v15 (F := Ideal) = y2
  have hc := c.isLt
  refine concatenate_pair_apply_right (1 : Fin S819200x65.rank) y1 y2 concatenates_S819200x64_S819200x1_S819200x65_d1
    (ix2 (row e p) c) rfl rfl (ix2 (row e p) (0 : Fin 1)) (fun b hb => ?_) ?_
  · match b with
    | ⟨0, _⟩ => rfl
    | ⟨1, _⟩ => exact absurd rfl hb
  · show 0 + 64 = c.val
    omega

/-- The comparison bit of row e · 200 + p: the mask compared with one. -/
theorem bit_apply (c : Fin 65) :
    val_main_call1_v0 (F := Ideal) ev (ix2 (row e p) c) = Ideal.cmp .oeq (ev (ix3 e p (16 : Fin 17))) 1 := by
  rw [val_main_call1_v0_apply, val_main_v17_apply, val_main_v4_apply, val_main_v2_apply, val_main_v1_apply,
    val_main_v3_apply, val_main_cst_apply, Ideal.cmpf_def, Ideal.ofBits_def, Ideal.ofBits_one_f32]
  have hi : idx_main_v1 (idx_main_v2 (idx_main_v17 (idx_main_call1_v0 (ix2 (row e p) c)))) = ix2 (row e p) (16 : Fin 17) := by
    funext a
    apply Fin.ext
    match a with
    | ⟨0, _⟩ => show (e.val * 200 + p.val) / 1 = e.val * 200 + p.val; omega
    | ⟨1, _⟩ => rfl
  rw [hi, v0_apply]

/-- The fill value of the row-wise select. -/
theorem fill_apply (i : S819200x65.Idx) : val_main_call1_v1 (F := Ideal) i = 0 := by
  rw [val_main_call1_v1_apply, val_main_cst_1_apply, Ideal.ofBits_def, Ideal.ofBits_zero_f32]

/-- An ordered-equal comparison of two extended reals is the bit 1 exactly when they are equal. -/
theorem cmp_oeq_eq_one (x y : EReal) : Ideal.cmp .oeq x y = 1#1 ↔ x = y := by
  unfold Ideal.cmp
  by_cases hxy : x = y
  · simp [hxy]
  · simp [hxy]

/-- THE REFERENCE AT AN ENTRY: entry (e, p, c) of the reference's result is output c of the plain arrangement on
    particle (e, p). -/
theorem ref_apply (c : Fin 65) :
    val_main_v19 (F := Ideal) ev W1 b1 W2 b2 (ix3 e p c)
      = outPlain (fun f k => W1 (ix2 f k)) (fun k => b1 (ix1 k)) (fun k c => W2 (ix2 k c)) (fun c => b2 (ix1 c))
          (fun f => ev (ix3 e p f)) c := by
  rw [val_main_v19_apply, idx19, val_main_v18_apply, bit_apply, fill_apply]
  unfold outPlain
  by_cases hm : ev (ix3 e p (16 : Fin 17)) = 1
  · rw [(cmp_oeq_eq_one _ _).2 hm, select_one, if_pos hm]
    by_cases hc : c.val < 64
    · rw [dif_pos hc, v16_apply_lt _ _ _ _ _ _ _ c hc, v14_apply]
    · rw [dif_neg hc, v16_apply_last _ _ _ _ _ _ _ c hc]
  · rw [eq_zero_of_ne_one (fun hb => hm ((cmp_oeq_eq_one _ _).1 hb)), select_zero, if_neg hm]

end Cert.ReferenceIdeal.RefValue

end
-- ==== Proof.MaskDomain.lean ====
/-
  The last conjunct of the precondition `finite_inputs`, read back at one element.

  The precondition ends in the test that every entry of events[:, :, 16:] equals 0.0 or equals 1.0: the slice
  [0:4096, 0:200, 16:17] of the events array is compared for equality with the splat of the f32 word 0x00000000 and
  with the splat of the f32 word 0x3F800000, the two bits are or-ed, and all 4096·200·1 bits are and-ed into one,
  which is and-ed with the conjunction of the finiteness tests. When the whole predicate is the bit 1, so is this
  last conjunct (an `and` of two bits is 1 only if both are), so is each bit the reduction met (a fold by `and`
  from 1 that ends at 1 met only 1s), and a bit `a | b` that is 1 has a = 1 or b = 1. At the ideal instance the
  comparison is equality of extended reals, the slice at (e, p, 0) reads the array at (e, p, 16), a broadcast scalar
  reads the scalar, and the two words denote the extended reals 0 and 1. Hence every entry events[e, p, 16] is 0 or 1.
-/
import proofs.«126524_g6803228197629_cont_sun_m_885_19_alg».proof.Pre_finite_inputs
import Idealize.ShloMosaic.Lib.ReduceAll
import Idealize.ShloMosaic.Lib.ValueIdx
import Idealize.ShloMosaic.Lib.IdealHost
import Idealize.ShloMosaic.PureOps.Ideal

noncomputable section

namespace Cert.MaskDomain

open Idealize.ShloMosaic Idealize.ShloMosaic.ValueIdx Cert.Pre_finite_inputs

variable [Cert.Pre_finite_inputs.Facts]

/-- The scalar shape has one index. -/
instance subsingleton_scalar_idx : Subsingleton S_.Idx := ⟨fun a b => funext fun d => d.elim0⟩

/-- An ordered-equal comparison of two extended reals is the bit 1 exactly when they are equal. -/
theorem cmp_oeq_eq_one (x y : EReal) : Ideal.cmp .oeq x y = 1#1 ↔ x = y := by
  unfold Ideal.cmp
  by_cases hxy : x = y
  · simp [hxy]
  · simp [hxy]

/-- The slice [0:4096, 0:200, 16:17] read at (e, p, 0) is the array at (e, p, 16): each coordinate is shifted by the
    slice's offset on its axis, 0, 0 and 16. -/
theorem slice_apply {α : Type} (x : S4096x200x17.Idx → α) (hs : S4096x200x17.Slices ![0, 0, 16] S4096x200x1)
    (e : Fin 4096) (p : Fin 200) :
    extractStridedSlice S4096x200x1 ![0, 0, 16] x hs (ix3 e p (0 : Fin 1)) = x (ix3 e p (16 : Fin 17)) := by
  unfold extractStridedSlice
  refine congrArg x (funext fun a => Fin.ext ?_)
  match a with
  | ⟨0, _⟩ => exact Nat.zero_add _
  | ⟨1, _⟩ => exact Nat.zero_add _
  | ⟨2, _⟩ => rfl

/-- THE LAST CONJUNCT DECODED: under the precondition, column 16 of the events array holds only 0 and 1. -/
theorem mask_zero_or_one (ev : FVec Ideal S4096x200x17 .f32) (W1 : FVec Ideal S16x128 .f32) (b1 : FVec Ideal S128 .f32)
    (W2 : FVec Ideal S128x64 .f32) (b2 : FVec Ideal S64 .f32)
    (h : Cert.Pre_finite_inputs.fn (F := Ideal) ev W1 b1 W2 b2 = (fun _ => 1#1)) (e : Fin 4096) (p : Fin 200) :
    ev (ix3 e p (16 : Fin 17)) = (0 : EReal) ∨ ev (ix3 e p (16 : Fin 17)) = (1 : EReal) := by
  -- the predicate's one bit, with the chain of operations in view
  have h0 := congrFun h ix0
  dsimp only [fn, fn_part1] at h0
  -- the outermost `and`: its second operand, the all-reduction of the or-ed bits, is 1
  simp only [andi] at h0
  rw [IntOp.andi_eq_one] at h0
  have h1 := h0.2
  clear h0 h
  -- so the or-ed bit at (e, p, 0) is 1
  have h2 := Host.reduce_andi_all _ _ _ _ _ h1 (ix3 e p (0 : Fin 1))
  clear h1
  -- read the or, the two comparisons, the slice, the broadcasts and the two words at that index
  simp only [ori, cmpf] at h2
  rw [IntOp.ori_eq_one, Ideal.cmpf_def, Ideal.cmpf_def, cmp_oeq_eq_one, cmp_oeq_eq_one, slice_apply,
    broadcastInDim_scalar_apply, broadcastInDim_scalar_apply, constant_apply, constant_apply,
    Ideal.ofBits_zero_f32, Ideal.ofBits_one_f32] at h2
  exact h2

end Cert.MaskDomain

end
-- ==== Proof.lean ====
/-
  The certificate: the Pallas kernel of a masked two-layer perceptron over 4096 events × 200 particles against its jnp
  reference, equal as extended reals under the stated precondition (finite inputs; the mask feature, used by the
  reference only as a mask, is zero or one).

  THE MATHEMATICS. A particle is seventeen numbers: sixteen features and a mask. The reference computes
  `relu (x · W1 + b1) · W2 + b2` on the features, appends a one, and replaces the whole row by zeros unless the mask is
  exactly one. The kernel instead works on the transposed events, multiplies every entry of the particle — the mask
  itself included — by the mask, and contracts with AUGMENTED weights: `W1` with the row `b1` below it and a last column
  that is zero but for a one in the corner, and likewise `W2`, `b2`. At mask one the seventeenth term of each
  contraction is the bias and the corner passes a one through both layers into the sixty-fifth output; at mask zero
  everything is zero. So on particles whose mask is zero or one the two agree (Proof/MaskedMlp.lean,
  `outAug_eq_outPlain`); only `0 · y = 0`, `1 · y = y`, commutativity and splitting off a sum's last term are used, which
  hold on the extended reals with infinite entries too, so the finiteness conjuncts are never opened.

  THE PIECES. Proof/Body.lean: the kernel body's stored entry is the augmented arrangement on one particle.
  Proof/Blocks.lean, Proof/Cover.lean: the 25 grid points' blocks are restrictions of one whole-array function and tile
  the output. Proof/LibScatterSet.lean, Proof/AugWeights.lean: the overwriting scatters that build the augmented weights,
  read at an entry. Proof/KernelRun.lean: the run read as one function of the arguments, through the transposes
  before and after the region. Proof/RefValue.lean: the reference's run read at an entry. Proof/MaskDomain.lean: the
  precondition's last conjunct says every mask is zero or one. The three frames are the generated frame runs.
-/
import proofs.«126524_g6803228197629_cont_sun_m_885_19_alg».proof.Defs
import proofs.«126524_g6803228197629_cont_sun_m_885_19_alg».proof.Proof.Gen.Kernel
import proofs.«126524_g6803228197629_cont_sun_m_885_19_alg».proof.Proof.Gen.Kernel.Skeleton
import proofs.«126524_g6803228197629_cont_sun_m_885_19_alg».proof.Proof.Gen.Kernel.Launch
import proofs.«126524_g6803228197629_cont_sun_m_885_19_alg».proof.Proof.Gen.Kernel.Points
import proofs.«126524_g6803228197629_cont_sun_m_885_19_alg».proof.Proof.Gen.Kernel.Frame
import proofs.«126524_g6803228197629_cont_sun_m_885_19_alg».proof.Proof.Gen.KernelIdeal
import proofs.«126524_g6803228197629_cont_sun_m_885_19_alg».proof.Proof.Gen.KernelIdeal.Skeleton
import proofs.«126524_g6803228197629_cont_sun_m_885_19_alg».proof.Proof.Gen.KernelIdeal.Launch
import proofs.«126524_g6803228197629_cont_sun_m_885_19_alg».proof.Proof.Gen.KernelIdeal.Points
import proofs.«126524_g6803228197629_cont_sun_m_885_19_alg».proof.Proof.Gen.KernelIdeal.Frame
import proofs.«126524_g6803228197629_cont_sun_m_885_19_alg».proof.Proof.Gen.ReferenceIdeal
import proofs.«126524_g6803228197629_cont_sun_m_885_19_alg».proof.Proof.Gen.ReferenceIdeal.Run
import proofs.«126524_g6803228197629_cont_sun_m_885_19_alg».proof.Proof.Gen.ReferenceIdeal.Read
import proofs.«126524_g6803228197629_cont_sun_m_885_19_alg».proof.Proof.Gen.Pre_finite_inputs
import proofs.«126524_g6803228197629_cont_sun_m_885_19_alg».proof.Proof.MaskedMlp
import proofs.«126524_g6803228197629_cont_sun_m_885_19_alg».proof.Proof.AugWeights
import proofs.«126524_g6803228197629_cont_sun_m_885_19_alg».proof.Proof.KernelRun
import proofs.«126524_g6803228197629_cont_sun_m_885_19_alg».proof.Proof.RefValue
import proofs.«126524_g6803228197629_cont_sun_m_885_19_alg».proof.Proof.MaskDomain
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments: the generated frame run. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two results are one function of the arguments: entry (e, p, c) of the kernel's is the augmented arrangement on
    particle (e, p), of the reference's the plain one, and the particle's mask is zero or one by the precondition. -/
theorem results_eq (ev : FVec Ideal Cert.KernelIdeal.S4096x200x17 .f32) (W1 : FVec Ideal Cert.KernelIdeal.S16x128 .f32)
    (b1 : FVec Ideal Cert.KernelIdeal.S128 .f32) (W2 : FVec Ideal Cert.KernelIdeal.S128x64 .f32) (b2 : FVec Ideal Cert.KernelIdeal.S64 .f32)
    (hpre : Cert.Pre_finite_inputs.fn (F := Ideal) ev W1 b1 W2 b2 = (fun _ => 1#1)) :
    Cert.ReferenceIdeal.Read.val_main_v19 (F := Ideal) ev W1 b1 W2 b2 = Cert.KernelIdeal.Run.kernelOut ev W1 b1 W2 b2 := by
  funext i
  obtain ⟨e, p, c, rfl⟩ : ∃ (e : Fin 4096) (p : Fin 200) (c : Fin 65), i = ix3 e p c := ⟨i 0, i 1, i 2, eq_ix3 i⟩
  rw [Cert.ReferenceIdeal.RefValue.ref_apply, Cert.KernelIdeal.Run.kernelOut_apply]
  exact (Cert.MaskedMlp.outAug_eq_outPlain
    (fun f k => Cert.KernelIdeal.Aug.w1aug_apply W1 b1 f k) (fun k c => Cert.KernelIdeal.Aug.w2aug_apply W2 b2 k c)
    (fun f => ev (ix3 e p f)) (Cert.MaskDomain.mask_zero_or_one ev W1 b1 W2 b2 hpre e p) c).symm

/-- At the ideal instance both programs, run from memories agreeing on the arguments, end with equal results. -/
theorem algebraic : Cert.algebraic_KernelIdeal_ReferenceIdeal := by
  intro m ρ m' ρ' hpre hagree
  refine ⟨fun c => Cert.KernelIdeal.Run.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))).trans ?_
  rw [(hagree c).1, (hagree c).2.1, (hagree c).2.2.1, (hagree c).2.2.2.1, (hagree c).2.2.2.2]
  exact results_eq _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
